-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .bf16⟩
  | .hbm, ⟨5, _⟩ => ⟨S8x1024x2048, .f32⟩
  | .hbm, ⟨6, _⟩ => ⟨S8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v26 : BitVec 1 := Scalar.cmpi .eq arg2 c15_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg2 c16_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S512x2048_S1x512x2048 : S512x2048.ShapeCasts S1x512x2048
  shapeCasts_S8x1024x2048_S8192x2048 : S8x1024x2048.ShapeCasts S8192x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .bf16 = 32 ∨ (Rect.block (s := S8x1024x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x8192.size a
  hwx0_2 : ∀ i : grid0.Coords, EltTy.bits .f32 = 32 ∨ (Rect.block (s := S8x2048x8192) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .f32 = 32 ∨ (Rect.block (s := S8x4096x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1024x2048.size a
  hwx0_4 : ∀ i : grid0.Coords, EltTy.bits .f32 = 32 ∨ (Rect.block (s := S8x1024x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.Spec.lean ====
/-
  The mathematical content of the claim, stated once and about no program.

  Eight experts; expert `e` owns the 1024 token rows `e*1024 … e*1024+1023` of the activations `X` (8192 × 2048), the
  slab `W e` (2048 × 8192) of the fused gate/up weights — its first 4096 columns the gate projection, its last 4096 the up
  projection — and the slab `D e` (4096 × 2048) of the down projection. For a token row `r` of expert `e`:

      gate r i = Σ_h X r h · W e h i                     (i < 4096)
      up   r i = Σ_h X r h · W e h (4096 + i)
      act  r i = up r i · (gate r i · σ(gate r i))        σ x = 1 / (1 + e^(-x)),   the SwiGLU activation
      out  r j = Σ_i act r i · D e i j                   (j < 2048)

  Everything is on the extended reals, where a float of any format is itself; sums are `Finset` sums (addition on the
  extended reals is a commutative monoid, so a sum may be cut into consecutive chunks and regrouped freely — which is
  all the two programs differ by).
-/
import Idealize.ShloMosaic.PureOps.Ideal
import Idealize.ShloMosaic.Lib.ValueIdx

noncomputable section

open scoped BigOperators

namespace Cert.Experts

open Idealize.ShloMosaic Idealize.ShloMosaic.ValueIdx

/-- The activations' shape, the fused gate/up weights', the down projection's. -/
abbrev SX : Shape := ⟨2, ![8192, 2048]⟩
abbrev SW : Shape := ⟨3, ![8, 2048, 8192]⟩
abbrev SD : Shape := ⟨3, ![8, 4096, 2048]⟩

/-- The expert that owns token row `r`, and the row's place among that expert's 1024 rows. -/
def expertOf (r : Fin 8192) : Fin 8 := ⟨r.val / 1024, by omega⟩
def tokenOf (r : Fin 8192) : Fin 1024 := ⟨r.val % 1024, Nat.mod_lt _ (by decide)⟩

/-- Column `i` of the gate half and of the up half of an expert's fused weight slab. -/
def gateCol (i : Fin 4096) : Fin 8192 := ⟨i.val, by omega⟩
def upCol (i : Fin 4096) : Fin 8192 := ⟨4096 + i.val, by omega⟩

/-- The gate projection of token row `r` at intermediate unit `i`. -/
def gate (X : SX.Idx → EReal) (W : SW.Idx → EReal) (r : Fin 8192) (i : Fin 4096) : EReal :=
  ∑ h : Fin 2048, X (ix2 r h) * W (ix3 (expertOf r) h (gateCol i))

/-- The up projection of token row `r` at intermediate unit `i`. -/
def up (X : SX.Idx → EReal) (W : SW.Idx → EReal) (r : Fin 8192) (i : Fin 4096) : EReal :=
  ∑ h : Fin 2048, X (ix2 r h) * W (ix3 (expertOf r) h (upCol i))

/-- The SwiGLU activation: the up projection times the gate projection passed through `x ↦ x · σ(x)`. -/
def act (X : SX.Idx → EReal) (W : SW.Idx → EReal) (r : Fin 8192) (i : Fin 4096) : EReal :=
  up X W r i * (gate X W r i * Ideal.logistic (gate X W r i))

/-- The experts' output: the activation contracted with the owning expert's down projection. -/
def out (X : SX.Idx → EReal) (W : SW.Idx → EReal) (D : SD.Idx → EReal) : SX.Idx → EReal := fun j =>
  ∑ i : Fin 4096, act X W (j 0) i * D (ix3 (expertOf (j 0)) i (j 1))

end Cert.Experts

end
-- ==== Proof.RefSide.lean ====
/-
  The reference program computes the experts' specification.

  The reference reshapes the token rows [8192, 2048] into [8, 1024, 2048] (row r = e * 1024 + t is token t of expert e),
  contracts with the fused weights, slices the gate half (columns 0 … 4095) and the up half (columns 4096 … 8191),
  passes the gate half through x ↦ x · (1 / (1 + e^(-x))), multiplies by the up half, contracts with the down projection
  and reshapes back. Read at one index (r, c) of the result this is, term by term, the specification's
      out r c = Σ_i up r i · (gate r i · σ(gate r i)) · D e i c,     e = r / 1024.
  The only arithmetic is the row-major reshape: (r * 2048 + c) / 2097152 = r / 1024, and
  ((r / 1024) * 1024 + r % 1024) * 2048 + h has quotient r and remainder h by 2048.

  Also here: a sum over 4096 terms cut into 16 consecutive chunks of 256 (the order in which the fused kernel
  accumulates the intermediate axis).
-/
import proofs.«134587_j38036230373627_2_alg».proof.Proof.Gen.ReferenceIdeal.Run
import proofs.«134587_j38036230373627_2_alg».proof.Proof.Gen.ReferenceIdeal.Read
import proofs.«134587_j38036230373627_2_alg».proof.Proof.Spec
import Idealize.ShloMosaic.Lib.IdealHost
import Idealize.ShloMosaic.Lib.ValueIdx

noncomputable section

open scoped BigOperators

namespace Cert.Experts.Ref

open Idealize.ShloMosaic Idealize.ShloMosaic.ValueIdx
open Cert.ReferenceIdeal Cert.ReferenceIdeal.Gen Cert.ReferenceIdeal.Read

/-! ## A sum in consecutive chunks -/

/-- A position among 4096 is a chunk (of 16) and a place in the chunk (of 256): position = chunk * 256 + place. -/
def chunkEquiv : Fin 16 × Fin 256 ≃ Fin 4096 where
  toFun p := ⟨p.1.val * 256 + p.2.val, by have := p.1.isLt; have := p.2.isLt; omega⟩
  invFun i := (⟨i.val / 256, by have := i.isLt; omega⟩, ⟨i.val % 256, Nat.mod_lt _ (by decide)⟩)
  left_inv p := by
    have h1 := p.1.isLt; have h2 := p.2.isLt
    refine Prod.ext (Fin.ext ?_) (Fin.ext ?_)
    · show (p.1.val * 256 + p.2.val) / 256 = p.1.val; omega
    · show (p.1.val * 256 + p.2.val) % 256 = p.2.val; omega
  right_inv i := by
    refine Fin.ext ?_
    show i.val / 256 * 256 + i.val % 256 = i.val; omega

/-- A sum over 4096 terms is the sum over 16 consecutive chunks of the sums over each chunk's 256 terms. -/
theorem sum_chunks {M : Type} [AddCommMonoid M] (f : Fin 4096 → M) :
    (∑ k : Fin 16, ∑ i : Fin 256, f ⟨k.val * 256 + i.val, by have := k.isLt; have := i.isLt; omega⟩) = ∑ i : Fin 4096, f i := by
  rw [← Equiv.sum_comp chunkEquiv f, Fintype.sum_prod_type]
  rfl

/-! ## The reference's index functions in coordinates -/

/-- Reshaping back: element (r, c) of the result is element (r / 1024, r % 1024, c) of the batched product. -/
theorem idx_out (r : Fin 8192) (c : Fin 2048) : idx_main_v7 (ix2 r c) = ix3 (expertOf r) (tokenOf r) c := by
  have hr := r.isLt; have hc := c.isLt
  funext a
  match a with
  | ⟨0, _⟩ => exact Fin.ext (by show (r.val * 2048 + c.val) / 2097152 = r.val / 1024; omega)
  | ⟨1, _⟩ => exact Fin.ext (by show (r.val * 2048 + c.val) / 2048 % 1024 = r.val % 1024; omega)
  | ⟨2, _⟩ => exact Fin.ext (by show (r.val * 2048 + c.val) % 2048 = c.val; omega)

/-- Reshaping in: element (r / 1024, r % 1024, h) of the batched activations is element (r, h) of the token rows. -/
theorem idx_in (r : Fin 8192) (h : Fin 2048) : idx_main_v0 (ix3 (expertOf r) (tokenOf r) h) = ix2 r h := by
  have hr := r.isLt; have hh := h.isLt
  funext a
  match a with
  | ⟨0, _⟩ => exact Fin.ext (by show ((r.val / 1024 * 1024 + r.val % 1024) * 2048 + h.val) / 2048 = r.val; omega)
  | ⟨1, _⟩ => exact Fin.ext (by show ((r.val / 1024 * 1024 + r.val % 1024) * 2048 + h.val) % 2048 = h.val; omega)

/-- The first contraction reads the activations along the hidden axis … -/
theorem lidx_proj (e : Fin 8) (t : Fin 1024) (u : Fin 8192) (h : Fin 2048) : lidx_main_v1 (ix3 e t u) h = ix3 e t h := by
  funext a
  match a with
  | ⟨0, _⟩ => rfl
  | ⟨1, _⟩ => rfl
  | ⟨2, _⟩ => rfl

/-- … and the expert's fused weights down column u. -/
theorem ridx_proj (e : Fin 8) (t : Fin 1024) (u : Fin 8192) (h : Fin 2048) : ridx_main_v1 (ix3 e t u) h = ix3 e h u := by
  funext a
  match a with
  | ⟨0, _⟩ => rfl
  | ⟨1, _⟩ => rfl
  | ⟨2, _⟩ => rfl

/-- The gate slice keeps the column. -/
theorem idx_gate (e : Fin 8) (t : Fin 1024) (i : Fin 4096) : idx_main_v2 (ix3 e t i) = ix3 e t (gateCol i) := by
  funext a
  match a with
  | ⟨0, _⟩ => rfl
  | ⟨1, _⟩ => rfl
  | ⟨2, _⟩ => rfl

/-- The up slice shifts the column by 4096. -/
theorem idx_up (e : Fin 8) (t : Fin 1024) (i : Fin 4096) : idx_main_v3 (ix3 e t i) = ix3 e t (upCol i) := by
  funext a
  match a with
  | ⟨0, _⟩ => rfl
  | ⟨1, _⟩ => rfl
  | ⟨2, _⟩ => rfl

/-- The second contraction reads the activation along the intermediate axis … -/
theorem lidx_down (e : Fin 8) (t : Fin 1024) (c : Fin 2048) (i : Fin 4096) : lidx_main_v6 (ix3 e t c) i = ix3 e t i := by
  funext a
  match a with
  | ⟨0, _⟩ => rfl
  | ⟨1, _⟩ => rfl
  | ⟨2, _⟩ => rfl

/-- … and the expert's down projection down column c. -/
theorem ridx_down (e : Fin 8) (t : Fin 1024) (c : Fin 2048) (i : Fin 4096) : ridx_main_v6 (ix3 e t c) i = ix3 e i c := by
  funext a
  match a with
  | ⟨0, _⟩ => rfl
  | ⟨1, _⟩ => rfl
  | ⟨2, _⟩ => rfl

/-! ## The stages at an index -/

variable (X : FVec Ideal Cert.ReferenceIdeal.S8192x2048 .f32) (W : FVec Ideal Cert.ReferenceIdeal.S8x2048x8192 .f32)
  (D : FVec Ideal Cert.ReferenceIdeal.S8x4096x2048 .f32)

/-- The fused projection of token row r at column u: the row against column u of its expert's weights. -/
theorem proj_at (r : Fin 8192) (u : Fin 8192) :
    val_main_v1 (F := Ideal) X W (ix3 (expertOf r) (tokenOf r) u) = ∑ h : Fin 2048, X (ix2 r h) * W (ix3 (expertOf r) h u) := by
  rw [val_main_v1_apply]
  refine Finset.sum_congr rfl fun h _ => ?_
  rw [val_main_v0_apply, lidx_proj, ridx_proj, idx_in]

/-- The gate slice is the specification's gate projection. -/
theorem gate_at (r : Fin 8192) (i : Fin 4096) :
    val_main_v2 (F := Ideal) X W (ix3 (expertOf r) (tokenOf r) i) = gate X W r i := by
  rw [val_main_v2_apply, idx_gate, proj_at]
  rfl

/-- The up slice is the specification's up projection. -/
theorem up_at (r : Fin 8192) (i : Fin 4096) :
    val_main_v3 (F := Ideal) X W (ix3 (expertOf r) (tokenOf r) i) = up X W r i := by
  rw [val_main_v3_apply, idx_up, proj_at]
  rfl

/-- The call of silu on the gate slice: x · (1 / (1 + e^(-x))) at x the gate projection. -/
theorem silu_at (r : Fin 8192) (i : Fin 4096) :
    val_main_v4 (F := Ideal) X W (ix3 (expertOf r) (tokenOf r) i) = gate X W r i * Ideal.logistic (gate X W r i) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, gate_at, Ideal.ofBits_def, Ideal.ofBits_one_f32]
  rfl

/-- The activation is the specification's. -/
theorem act_at (r : Fin 8192) (i : Fin 4096) :
    val_main_v5 (F := Ideal) X W (ix3 (expertOf r) (tokenOf r) i) = act X W r i := by
  rw [val_main_v5_apply, up_at, silu_at]
  rfl

/-! ## The reference is the specification -/

/-- The reference's result, as the last stage of its reading, is the experts' output. -/
theorem ref_eq : val_main_v7 (F := Ideal) X W D = Cert.Experts.out X W D := by
  funext j
  obtain ⟨r, c, rfl⟩ : ∃ (r : Fin 8192) (c : Fin 2048), j = ix2 r c := ⟨j 0, j 1, eq_ix2 j⟩
  rw [val_main_v7_apply, idx_out, val_main_v6_apply]
  show _ = ∑ i : Fin 4096, act X W r i * D (ix3 (expertOf r) i c)
  refine Finset.sum_congr rfl fun i _ => ?_
  rw [lidx_down, ridx_down, act_at]

/-- The same, stated of the composed term the reference's run ends its result buffer at. -/
theorem ref_run_eq :
    shapeCast _ (Host.dotGeneral dot_S8x1024x4096_S8x4096x2048_S8x1024x2048_2_1_1_2_0_0 none (mulf (extractStridedSlice S8x1024x4096 ![0, 0, 4096] (Host.dotGeneral dot_S8x1024x2048_S8x2048x8192_S8x1024x8192_2_1_1_2_0_0 none (shapeCast _ (X) shapeCasts_S8192x2048_S8x1024x2048) (W)) slices_S8x1024x8192_S8x1024x4096_0_0_4096) (mulf (extractStridedSlice S8x1024x4096 ![0, 0, 0] (Host.dotGeneral dot_S8x1024x2048_S8x2048x8192_S8x1024x8192_2_1_1_2_0_0 none (shapeCast _ (X) shapeCasts_S8192x2048_S8x1024x2048) (W)) slices_S8x1024x8192_S8x1024x4096_0_0_0) (Host.divf (broadcastInDim S8x1024x4096 ![] bcast_S_S8x1024x4096 (constant (F := Ideal) S_ .f32 0x3F800000#32)) (addf (broadcastInDim S8x1024x4096 ![] bcast_S_S8x1024x4096 (constant (F := Ideal) S_ .f32 0x3F800000#32)) (Host.exp (Host.negf (extractStridedSlice S8x1024x4096 ![0, 0, 0] (Host.dotGeneral dot_S8x1024x2048_S8x2048x8192_S8x1024x8192_2_1_1_2_0_0 none (shapeCast _ (X) shapeCasts_S8192x2048_S8x1024x2048) (W)) slices_S8x1024x8192_S8x1024x4096_0_0_0))))))) (D)) shapeCasts_S8x1024x2048_S8192x2048
      = Cert.Experts.out X W D :=
  (val_main_v7_eq (F := Ideal) X W D).trans (ref_eq X W D)

end Cert.Experts.Ref

end
-- ==== Proof.K.Base.lean ====
/-
  What everything about the kernel's run is stated over, for any float values `F`.

  @main is: two host lines (the activations reshaped to [8, 1024, 2048], then rounded to bf16), the one kernel region on
  the grid (expert, token tile, intermediate chunk) = 8 × 2 × 16 walked with the chunk axis innermost, and one host line
  after it (the result reshaped back to [8192, 2048]). Point `t` of the grid has chunk coordinate `t % 16`: the body
  zeroes its accumulator exactly at the points with `t % 16 = 0` and stores the accumulator into the output block exactly
  at those with `t % 16 = 15`; at every other point the output block is left alone and is not written back.
-/
import proofs.«134587_j38036230373627_2_alg».proof.Proof.Gen.Kernel.Launch
import proofs.«134587_j38036230373627_2_alg».proof.Proof.Gen.Kernel.Skeleton
import proofs.«134587_j38036230373627_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the line after it, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region write neither argument array it reads nor the first argument. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form over the grid -/

/-- "This is the first chunk" (`k == 0`), as the body computes it from the coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last chunk" (`k == 15`). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last chunk the output block is idle and is not written back; on it, it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The staging memrefs the body is called with, and the accumulator -/

abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

/-- The accumulator: the kernel's one scratch buffer, kept from point to point. -/
abbrev scM0_0 : Memref sig .tc .vmem S512x2048 .f32 := Memref.whole cc0_scratch0
abbrev VS0_0 : View sig .tc .vmem S512x2048 .f32 := scM0_0.view
/-- One staging buffer of the output window, through which its contents are stated. -/
abbrev VO0_4 : View sig .tc .vmem S1x512x2048 .f32 := (Memref.whole cc0_stg4_0 : Memref sig .tc .vmem S1x512x2048 .f32).view

/-- What the region hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.Data.lean ====
/-
  The proof data of the kernel's one pipeline, for any float values.

  The accumulator after point `n`: at a first chunk (`n % 16 = 0`) the body zeroes it and adds this point's
  contribution, so it holds the point's arithmetic applied to the zero block; at any other point it holds the
  point's arithmetic applied to what the point before left. The output block, at a last chunk (`n % 16 = 15`),
  receives the accumulator reshaped. Every input block is left as it was found. The fused weight array is read
  through two windows (the gate columns and the up columns), each holding one half of the array's share.
-/
import proofs.«134587_j38036230373627_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the accumulator holds after the body at position `n`. -/
def accAt (c : Dev nD) : (n : ℕ) → n < cfg0.N → Vec F S512x2048 .f32
  | 0, hn => k0_pay2 (iblk m c 0 ⟨0, hn⟩) (iblk m c 1 ⟨0, hn⟩) (iblk m c 2 ⟨0, hn⟩) (iblk m c 3 ⟨0, hn⟩) (k0_pay1 (F := F))
  | n + 1, hn =>
    if (n + 1) % 16 = 0 then
      k0_pay2 (iblk m c 0 ⟨n + 1, hn⟩) (iblk m c 1 ⟨n + 1, hn⟩) (iblk m c 2 ⟨n + 1, hn⟩) (iblk m c 3 ⟨n + 1, hn⟩) (k0_pay1 (F := F))
    else
      k0_pay2 (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a first chunk: this point's contribution added to zero. -/
theorem accAt_first (c : Dev nD) (t : Fin cfg0.N) (h0 : t.val % 16 = 0) :
    accAt m c t.val t.isLt = k0_pay2 (iblk m c 0 t) (iblk m c 1 t) (iblk m c 2 t) (iblk m c 3 t) (k0_pay1 (F := F)) := by
  obtain ⟨n, hn⟩ := t
  cases n with
  | zero => rfl
  | succ n => exact if_pos h0

/-- At a later chunk: this point's contribution added to what the point before left. -/
theorem accAt_next (c : Dev nD) (t : Fin cfg0.N) (h0 : ¬t.val % 16 = 0) :
    accAt m c t.val t.isLt = k0_pay2 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h0
  | succ n => exact if_neg h0

/-! ## The invariant carried from point to point -/

/-- Before the first point the accumulator holds anything; before any later point, what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; after the body each input's buffer at its block and the output's at the
    accumulator reshaped; the invariant `PhiS`; the fused weights' share halved between the two windows that read
    them; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (accAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (accAt m c t.val t.isLt) := by dsimp only [dats]

theorem q0 (c : Dev nD) : (dats m 0 c).q 0 = fullShare := rfl
theorem q1 (c : Dev nD) : (dats m 0 c).q 1 = fullShare.left := rfl
theorem q2 (c : Dev nD) : (dats m 0 c).q 2 = fullShare.right := rfl
theorem q3 (c : Dev nD) : (dats m 0 c).q 3 = fullShare := rfl

/-! ## Each input's buffer holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The invariant at the region's ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.K.Runs.lean ====
/-
  The kernel body's run, one statement per control case, for any float values `F`.

  The body reads the four input blocks, adds the chunk's contribution to the accumulator, and — depending on the
  chunk coordinate — first zeroes the accumulator (first chunk) or finally copies it into the output block (last
  chunk). Each statement below says: started on whole memrefs holding the given contents, the body runs to a
  continuation that gets the inputs back as they were and each written buffer with the list of pieces stored into it
  (last store first). The lists are the witnesses found while the run is carried out.

  The second half reads the lists back: every store is the whole buffer at zero offsets, so each list covers its buffer
  and leaves the payload of its last store. This gives the same three statements with the written buffers owned at named
  contents: the accumulator at the chunk's contribution added to what it held (the zero block in the first chunk), and
  in the last chunk the output block at that accumulator under a leading unit axis.
-/
import proofs.«134587_j38036230373627_2_alg».proof.Proof.K.Base
import Idealize.ShloMosaic.Lib.Ring
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First chunk (`k = 0`, not the last): the accumulator, whatever it held, is zeroed and then receives the chunk's
    contribution; the output block is not touched and comes back as it was. -/
noncomputable def kernelRun0_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) :
    Σ' (L4 : List (View.Piece (Elt F) S1x512x2048 .f32)), { LS0 : List (View.Piece (Elt F) S512x2048 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨[], ?_, fun xi4 E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- A middle chunk (neither first nor last): the accumulator comes in at what the point before left and receives the
    chunk's contribution; the output block is not touched and comes back as it was. -/
noncomputable def kernelRun0_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) :
    Σ' (L4 : List (View.Piece (Elt F) S1x512x2048 .f32)), { LS0 : List (View.Piece (Elt F) S512x2048 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨[], ?_, fun xi4 E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- Last chunk (`k = 15`, not the first): the accumulator receives the chunk's contribution and is then copied, with a
    leading unit axis, into the output block, which may have held anything. -/
noncomputable def kernelRun0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) :
    Σ' (L4 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨?_, ?_, fun E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-! ## What the written buffers hold, by name

Every store of the body is one rectangle: the whole buffer at zero offsets. So each list of pieces covers its buffer,
and read back it is the payload of its last store, whose loads read whole buffers too. -/

theorem hz2 : (![0, 0] : Fin 2 → Nat) = fun _ => 0 := funext fun a => by fin_cases a <;> rfl
theorem hz3 : (![0, 0, 0] : Fin 3 → Nat) = fun _ => 0 := funext fun a => by fin_cases a <;> rfl

/-- First chunk: the accumulator's pieces cover it. -/
theorem scover0_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) (y : S512x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S512x2048.size (by sl_kernel_rfl) y

/-- A middle chunk: the accumulator's piece covers it. -/
theorem scover0_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) (y : S512x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S512x2048.size (by sl_kernel_rfl) y

/-- Last chunk: the accumulator's piece covers it, -/
theorem scover0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (y : S512x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S512x2048.size (by sl_kernel_rfl) y

/-- and the output block's piece covers it. -/
theorem cover0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (y : S1x512x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x512x2048.size (by sl_kernel_rfl) y

/-- First chunk: the accumulator ends at the chunk's contribution added to the zero block it was just filled with. -/
theorem sval0_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) (f : arg8.view.ty.Contents (Elt F)) :
    arg8.view.read (Elt F) (arg8.view.writes (Elt F) f (kernelRun0_A c i arg3 harg3 arg4 harg4 arg5 harg5 arg6 harg6 arg7 harg7 arg8 harg8 hc0 hc1 x0 x1 x2 x3).2.1)
      = k0_pay2 x0 x1 x2 x3 (k0_pay1 (F := F)) := by
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-- A middle chunk: the accumulator ends at the chunk's contribution added to what it held. -/
theorem sval0_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) (f : arg8.view.ty.Contents (Elt F)) :
    arg8.view.read (Elt F) (arg8.view.writes (Elt F) f (kernelRun0_B c i arg3 harg3 arg4 harg4 arg5 harg5 arg6 harg6 arg7 harg7 arg8 harg8 hc0 hc1 x0 x1 x2 x3 xs0).2.1)
      = k0_pay2 x0 x1 x2 x3 xs0 := by
  rw [View.read_writes_eq_canon _ _ _ (scover0_B c i arg3 harg3 arg4 harg4 arg5 harg5 arg6 harg6 arg7 harg7 arg8 harg8 hc0 hc1 x0 x1 x2 x3 xs0)]
  unfold kernelRun0_B
  dsimp only
  rw [View.canon_unit_zero (S := S512x2048) hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-- Last chunk: the accumulator ends as in a middle chunk, -/
theorem sval0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (f : arg8.view.ty.Contents (Elt F)) :
    arg8.view.read (Elt F) (arg8.view.writes (Elt F) f (kernelRun0_C c i arg3 harg3 arg4 harg4 arg5 harg5 arg6 harg6 arg7 harg7 arg8 harg8 hc0 hc1 x0 x1 x2 x3 xs0).2.1)
      = k0_pay2 x0 x1 x2 x3 xs0 := by
  rw [View.read_writes_eq_canon _ _ _ (scover0_C c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-- and the output block ends at that accumulator under a leading unit axis. -/
theorem val0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (f : arg7.view.ty.Contents (Elt F)) :
    arg7.view.read (Elt F) (arg7.view.writes (Elt F) f (kernelRun0_C c i arg3 harg3 arg4 harg4 arg5 harg5 arg6 harg6 arg7 harg7 arg8 harg8 hc0 hc1 x0 x1 x2 x3 xs0).1)
      = k0_pay3 (k0_pay2 x0 x1 x2 x3 xs0) := by
  rw [View.read_writes_eq_canon _ _ _ (cover0_C c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1x512x2048) hz3, View.readCov_unit_zero (S := S512x2048) _ hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-! ## The runs with the written buffers named -/

/-- First chunk. -/
theorem run_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) (xi4 : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare (k0_pay2 x0 x1 x2 x3 (k0_pay1 (F := F)))) -∗ K ⟨⟩))
      ⊢ wp frame (wpE (defs₀ (F := F)) Variants.none c none) E (cc0__experts_kernel i arg3 harg3 arg4 harg4 arg5 harg5 arg6 harg6 arg7 harg7 arg8 harg8) K := by
  iintro ⟨H0, H1, H2, H3, H4, HS0, Hk⟩
  iapply ((kernelRun0_A c i arg3 harg3 arg4 harg4 arg5 harg5 arg6 harg6 arg7 harg7 arg8 harg8 hc0 hc1 x0 x1 x2 x3).2.2 xi4 E K)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  iapply Hk
  isplitl [H0]; · iexact H0
  isplitl [H1]; · iexact H1
  isplitl [H2]; · iexact H2
  isplitl [H3]; · iexact H3
  isplitl [H4]; · iexact H4
  unfold owns; iexists _; isplitr
  swap; · iexact HS0
  ipureintro; exact sval0_A c i arg3 harg3 arg4 harg4 arg5 harg5 arg6 harg6 arg7 harg7 arg8 harg8 hc0 hc1 x0 x1 x2 x3 _

/-- A middle chunk. -/
theorem run_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) (xi4 : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare (k0_pay2 x0 x1 x2 x3 xs0)) -∗ K ⟨⟩))
      ⊢ wp frame (wpE (defs₀ (F := F)) Variants.none c none) E (cc0__experts_kernel i arg3 harg3 arg4 harg4 arg5 harg5 arg6 harg6 arg7 harg7 arg8 harg8) K := by
  iintro ⟨H0, H1, H2, H3, H4, HS0, Hk⟩
  iapply ((kernelRun0_B c i arg3 harg3 arg4 harg4 arg5 harg5 arg6 harg6 arg7 harg7 arg8 harg8 hc0 hc1 x0 x1 x2 x3 xs0).2.2 xi4 E K)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  iapply Hk
  isplitl [H0]; · iexact H0
  isplitl [H1]; · iexact H1
  isplitl [H2]; · iexact H2
  isplitl [H3]; · iexact H3
  isplitl [H4]; · iexact H4
  unfold owns; iexists _; isplitr
  swap; · iexact HS0
  ipureintro; exact sval0_B c i arg3 harg3 arg4 harg4 arg5 harg5 arg6 harg6 arg7 harg7 arg8 harg8 hc0 hc1 x0 x1 x2 x3 xs0 _

/-- Last chunk. -/
theorem run_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 (k0_pay2 x0 x1 x2 x3 xs0)) ∗ owns (c : Thread nD τ) arg8 fullShare (k0_pay2 x0 x1 x2 x3 xs0)) -∗ K ⟨⟩))
      ⊢ wp frame (wpE (defs₀ (F := F)) Variants.none c none) E (cc0__experts_kernel i arg3 harg3 arg4 harg4 arg5 harg5 arg6 harg6 arg7 harg7 arg8 harg8) K := by
  iintro ⟨H0, H1, H2, H3, H4, HS0, Hk⟩
  iapply ((kernelRun0_C c i arg3 harg3 arg4 harg4 arg5 harg5 arg6 harg6 arg7 harg7 arg8 harg8 hc0 hc1 x0 x1 x2 x3 xs0).2.2 E K)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, ⟨%e4, H4⟩, ⟨%es0, HS0⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact val0_C c i arg3 harg3 arg4 harg4 arg5 harg5 arg6 harg6 arg7 harg7 arg8 harg8 hc0 hc1 x0 x1 x2 x3 xs0 _
  unfold owns; iexists _; isplitr
  swap; · iexact HS0
  ipureintro; exact sval0_C c i arg3 harg3 arg4 harg4 arg5 harg5 arg6 harg6 arg7 harg7 arg8 harg8 hc0 hc1 x0 x1 x2 x3 xs0 _

end Cert.Kernel.Hand

end
-- ==== Proof.K.Body.lean ====
/-
  The body obligation: at every grid point the kernel body, handed the invariant and its five current staging
  buffers, leaves the invariant for the next point and each buffer at what the proof data says.

  Three kinds of point. A first chunk (`t % 16 = 0`): the accumulator comes in at anything and goes out at this
  point's contribution added to zero; the output block is left alone. A middle chunk: the accumulator comes in at
  what the point before left and goes out with this point's contribution added; the output block is left alone. A
  last chunk (`t % 16 = 15`): as a middle chunk, and the output block receives the accumulator. The inputs' buffers
  hold their blocks throughout.
-/
import proofs.«134587_j38036230373627_2_alg».proof.Proof.K.Data
import proofs.«134587_j38036230373627_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 256 := lt_of_lt_of_eq t.isLt (show cfg0.N = 256 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [accAt_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond0_0 (grid0.coords t) := fun h => h0 ((hcond0_0 t).mp h)
    rw [accAt_next m c t h0]
    rw [PhiS_castSucc m c t, PhiS_pos m c _ _ hz]
    by_cases h1 : t.val % 16 = 15
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4, accAt_next m c t h0]
      iintro ⟨⟨HS0, Hg⟩, Ho, ⟨%d0, H0⟩, ⟨%d1, H1⟩, ⟨%d2, H2⟩, ⟨%d3, H3⟩, ⟨%d4, H4⟩⟩
      iapply (run_C c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 4 t (idleAt0_4 t hc1) (noFlush0_4 t hc1)]
      iintro ⟨⟨HS0, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of @main around the kernel region, for any float values `F`, when two windows read one array.

  The region's five windows stand on four buffers: the rounded activations, the fused gate/up weights (read by window 1
  for the gate half and by window 2 for the up half), the down projection, and the output. The launch hands the region
  each buffer whole; the pipeline wants one holding per window. The shared buffer's full share is cut in two halves,
  the left for window 1 and the right for window 2 — both windows only read, so a half each suffices — and at the
  region's exit nothing needs to be put back together: the one host line after the region reshapes the output array,
  which window 4 holds whole, into the last buffer, which bypasses the region. The run's post reads the arrays at what
  the proof data compute after the last grid point, the first argument at its launch contents, and the last buffer at
  the output array flattened to [8192, 2048].
-/
import proofs.«134587_j38036230373627_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells are pairwise distinct at the one admissible table contents. -/
theorem cellOf_inj' (a : (p : Fin 1) → ((cfgs p).toPCfg (Val := Elt F)).Adm) :
    Function.Injective (cellOf (nD := nD) (τ := τ) (Pipeline.pin (fun q => (cfgs q).toPCfg (Val := Elt F)) a)) := by
  rw [Subsingleton.elim a fun q => (cfgs q).toPCfg_adm]; exact cellOf_inj

/-! ## The five windows' arrays as four buffers

Windows 1 and 2 read the same buffer (the fused gate/up weights): the pipeline holds it once per window, at the left and
the right half of the full share, and the two halves together are the whole buffer. -/

section Arrays

variable {m}
variable (c : Dev nD) (dat : Dat τ (Elt F) Unit ℕ (UR sig nD τ) ℕ (cfgs 0) c)

/-- The shares the five arrays are held at, from the shares of the four inputs. -/
theorem shares (hq0 : dat.q 0 = fullShare) (hq1 : dat.q 1 = fullShare.left) (hq2 : dat.q 2 = fullShare.right)
    (hq3 : dat.q 3 = fullShare) :
    dat.share 0 = fullShare ∧ dat.share 1 = fullShare.left ∧ dat.share 2 = fullShare.right ∧ dat.share 3 = fullShare
      ∧ dat.share 4 = fullShare :=
  ⟨(if_neg (by decide)).trans hq0, (if_neg (by decide)).trans hq1, (if_neg (by decide)).trans hq2,
    (if_neg (by decide)).trans hq3, if_pos (by decide)⟩

/-- The pipeline's arrays, window by window, each a whole buffer at its share. -/
theorem arrays_five (hq0 : dat.q 0 = fullShare) (hq1 : dat.q 1 = fullShare.left) (hq2 : dat.q 2 = fullShare.right)
    (hq3 : dat.q 3 = fullShare)
    (A : (w : Fin (cfgs 0).W) → Buf (Elt F) (((cfgs 0).win w).arr.view.loc (c.tc : Thread nD τ))) :
    (dat.arrays A : sProp 𝕄)
      = iprop((((c.tc : Thread nD τ).loc main_v1) ↦{fullShare} A 0)
          ∗ (((c.tc : Thread nD τ).loc main_arg1) ↦{fullShare.left} A 1)
          ∗ (((c.tc : Thread nD τ).loc main_arg1) ↦{fullShare.right} A 2)
          ∗ (((c.tc : Thread nD τ).loc main_arg2) ↦{fullShare} A 3)
          ∗ (((c.tc : Thread nD τ).loc main_v2) ↦{fullShare} A 4)) := by
  obtain ⟨h0, h1, h2, h3, h4⟩ := shares c dat hq0 hq1 hq2 hq3
  unfold Dat.arrays
  rw [bigSep_W0, (arr_whole0 0).set_eq_univ, (arr_whole0 1).set_eq_univ,
    (arr_whole0 3).set_eq_univ, (arr_whole0 4).set_eq_univ, h0, h1, h2, h3, h4]

end Arrays

section Split

variable (c : Dev nD) (dat : Dat τ (Elt F) Unit ℕ (UR sig nD τ) ℕ (cfgs 0) c)

/-- The four distinct buffers behind the five windows' arrays, one by one. -/
theorem arrBufs_four (Vc : (b : Ref sig .tc) → Buf (Elt F) ((c.tc : Thread nD τ).loc b)) :
    (Pipeline.arrBufs (Ix := Unit) (Name := ℕ) (U := UR sig nD τ) (Lvl := ℕ) spec0 c Vc : sProp 𝕄)
      = iprop((((c.tc : Thread nD τ).loc main_v1) ↦{fullShare} Vc main_v1)
          ∗ (((c.tc : Thread nD τ).loc main_arg1) ↦{fullShare} Vc main_arg1)
          ∗ (((c.tc : Thread nD τ).loc main_arg2) ↦{fullShare} Vc main_arg2)
          ∗ (((c.tc : Thread nD τ).loc main_v2) ↦{fullShare} Vc main_v2)) := by
  unfold Pipeline.arrBufs
  exact bigSep_eq_bigSepL_of_eq [main_v1, main_arg1, main_arg2, main_v2] (by decide) (by decide) _

/-- The launch's four whole buffers are the pipeline's five arrays at entry: the shared buffer's full share splits
    into the halves windows 1 and 2 hold. -/
theorem arrays_split5 (hq0 : dat.q 0 = fullShare) (hq1 : dat.q 1 = fullShare.left) (hq2 : dat.q 2 = fullShare.right)
    (hq3 : dat.q 3 = fullShare) (hA : ∀ w, dat.A w = V m c (Pipeline.arrRef spec0 w)) :
    (Pipeline.arrBufs (Ix := Unit) (Name := ℕ) (U := UR sig nD τ) (Lvl := ℕ) spec0 c (V m c) : sProp 𝕄)
      ⊢ dat.arrays (dat.arrAt · 0) := by
  have e : ∀ w, dat.arrAt w 0 = V m c (Pipeline.arrRef spec0 w) := fun w => hA w
  rw [arrBufs_four, arrays_five c dat hq0 hq1 hq2 hq3]
  beta_reduce
  rw [e 0, e 1, e 2, e 3, e 4]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

end Split

/-! ## The line after the region

The one host line after the region reshapes the output array (window 4's, held whole) into the last buffer, which
bypasses the region. It runs holding those two buffers and nothing else. -/

section Tail

variable (c : Dev nD)

/-- The contents the line starts from: the region-entry contents, with the output array at `a`. -/
def tailV (a : Buf (Elt F) ((c.tc : Thread nD τ).loc main_v2)) : Valuation τ sig (Elt F) :=
  Function.update (V0 m c) (Proc.devRef .tc main_v2) a

theorem tailV_v2 (a : Buf (Elt F) ((c.tc : Thread nD τ).loc main_v2)) :
    tailV m c a (Proc.devRef .tc main_v2) = a := by
  unfold tailV; exact Function.update_self _ _ _

theorem tailV_v3 (a : Buf (Elt F) ((c.tc : Thread nD τ).loc main_v2)) :
    tailV m c a (Proc.devRef .tc main_v3) = V m c main_v3 := by
  unfold tailV; exact Function.update_of_ne (StableHlo.devRef_ne_of_ne (by decide)) _ _

/-- The output array flattened to [8192, 2048]: what the line writes. -/
abbrev outFlat (a : Buf (Elt F) ((c.tc : Thread nD τ).loc main_v2)) : Buf (Elt F) ((c.tc : Thread nD τ).loc main_v3) :=
  shapeCast S8192x2048 a shapeCasts_S8x1024x2048_S8192x2048

theorem after_v2 (a : Buf (Elt F) ((c.tc : Thread nD τ).loc main_v2)) :
    StableHlo.after hostOps1 (tailV m c a) (Proc.devRef .tc main_v2) = a := by
  after_results
  exact tailV_v2 m c a

theorem after_v3 (a : Buf (Elt F) ((c.tc : Thread nD τ).loc main_v2)) :
    StableHlo.after hostOps1 (tailV m c a) (Proc.devRef .tc main_v3) = outFlat c a := by
  after_results
  rw [tailV_v2]
  rfl

end Tail

section TailRun

variable (c : Dev nD) (dat : Dat τ (Elt F) Unit ℕ (UR sig nD τ) ℕ (cfgs 0) c)

/-- The two buffers the line touches. -/
abbrev tailSet : Finset (DevRef τ sig) := {Proc.devRef .tc main_v2, Proc.devRef .tc main_v3}

theorem held_tailSet (Wv : Valuation τ sig (Elt F)) :
    (StableHlo.held (c.tc : Thread nD τ) tailSet Wv : sProp 𝕄)
      = iprop((((c.tc : Thread nD τ).loc main_v2) ↦{fullShare} Wv (Proc.devRef .tc main_v2))
          ∗ (((c.tc : Thread nD τ).loc main_v3) ↦{fullShare} Wv (Proc.devRef .tc main_v3))) := by
  unfold StableHlo.held tailSet
  rw [bigSep_insert (by rw [Finset.mem_singleton]; exact StableHlo.devRef_ne_of_ne (by decide)), bigSep_singleton]
  rfl

theorem tail_sub : ∀ ops ∈ [(hostOps1 : List (HloOp τ sig (Elt F)))], ∀ op ∈ ops, op.bufs ⊆ tailSet := by
  intro ops hops op hop
  obtain rfl := List.mem_singleton.mp hops
  obtain rfl := List.mem_singleton.mp hop
  exact Finset.Subset.refl _

theorem tail_fresh : ∀ ops ∈ [(hostOps1 : List (HloOp τ sig (Elt F)))], ∀ op ∈ ops, op.fresh = ∅ := by
  intro ops hops op hop
  obtain rfl := List.mem_singleton.mp hops
  exact List.forall_iff_forall_mem.mp hostOps1_fresh op hop

/-- What bypasses the region, after the line: the first argument and the reshaped activations as the region found
    them, and the last buffer at the output array flattened. -/
def restAfter (a : Buf (Elt F) ((c.tc : Thread nD τ).loc main_v2)) : sProp 𝕄 :=
  iprop((((c.tc : Thread nD τ).loc main_arg0) ↦{fullShare} V m c main_arg0)
      ∗ (((c.tc : Thread nD τ).loc main_v0) ↦{fullShare} V m c main_v0)
      ∗ (((c.tc : Thread nD τ).loc main_v3) ↦{fullShare} outFlat c a))

set_option backward.isDefEq.respectTransparency.types false in
/-- From the region's exit the line runs and hands back the arrays as they were and the bypassing buffers with the
    last one rewritten. -/
theorem tail_run (hq0 : dat.q 0 = fullShare) (hq1 : dat.q 1 = fullShare.left) (hq2 : dat.q 2 = fullShare.right)
    (hq3 : dat.q 3 = fullShare) (Q' : PUnit → sProp 𝕄) :
    iprop((iprop(dat.arrays (dat.arrAt · (cfgs 0).N) ∗ restAfter m c (dat.arrAt 4 (cfgs 0).N)) -∗ Q' ⟨⟩)
        ∗ boundary (c.tc : Thread nD τ) ∗ dat.arrays (dat.arrAt · (cfgs 0).N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_five c dat hq0 hq1 hq2 hq3, unscopedRest0_eq]
  unfold restAfter
  beta_reduce
  change _ ⊢ wp frame _ Set.univ (Pipeline.chain (List.map StableHlo.seq [hostOps1] ++ [])) Q'
  iintro ⟨Hk, Hb, ⟨A0, A1, A2, A3, A4⟩, ⟨R0, R1, R2⟩⟩
  ihave Hh := (show iprop((((c.tc : Thread nD τ).loc main_v2) ↦{fullShare} dat.arrAt 4 (cfgs 0).N)
        ∗ (((c.tc : Thread nD τ).loc main_v3) ↦{fullShare} V m c main_v3))
      ⊢ (StableHlo.held (c.tc : Thread nD τ) tailSet (tailV m c (dat.arrAt 4 (cfgs 0).N)) : sProp 𝕄) from by
        rw [held_tailSet, tailV_v2, tailV_v3]) $$ [A4 R2]
  · isplitl [A4]; · iexact A4
    iexact R2
  iapply (Pipeline.wp_seqs_then (fun q => (cfgs q).toPCfg (Val := Elt F)) defs₀ Variants.none c tailSet [] [hostOps1]
    tail_sub tail_fresh (tailV m c (dat.arrAt 4 (cfgs 0).N))) $$ [Hb Hh]
  · isplitl [Hb]; · iexact Hb
    iexact Hh
  iintro ⟨Hb, Hh⟩
  rw [Pipeline.chain_nil, wp_pure]
  imodintro
  iapply Hk
  ihave Hh' := (show (StableHlo.held (c.tc : Thread nD τ) tailSet
        (StableHlo.after ([hostOps1] : List (List (HloOp τ sig (Elt F)))).flatten (tailV m c (dat.arrAt 4 (cfgs 0).N))) : sProp 𝕄)
      ⊢ iprop((((c.tc : Thread nD τ).loc main_v2) ↦{fullShare} dat.arrAt 4 (cfgs 0).N)
        ∗ (((c.tc : Thread nD τ).loc main_v3) ↦{fullShare} outFlat c (dat.arrAt 4 (cfgs 0).N))) from by
        rw [show ([hostOps1] : List (List (HloOp τ sig (Elt F)))).flatten = hostOps1 from by simp,
          held_tailSet, after_v2, after_v3]) $$ Hh
  icases Hh' with ⟨A4, R2⟩
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  iexact R2

end TailRun

/-! ## The run of @main -/

set_option backward.isDefEq.respectTransparency.types false in
/-- From any memory with zero counters, every weakly fair execution of @main on the TensorCore terminates; at the end
    every array of the pipeline holds what the proof data compute for it after the last point, the first argument is
    as it was launched, and the last buffer holds the output array flattened to [8192, 2048]. The proof data hold the
    shared weights' buffer at the left half of the full share for window 1 and at the right half for window 2. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((cfg0.spec w).arr.view.loc (c.tc : Thread nD τ)) = (dats 0 c).arrAt w cfg0.N)
      ∧ r.2.mem ((c.tc : Thread nD τ).loc main_arg0) = m ((c.tc : Thread nD τ).loc main_arg0)
      ∧ r.2.mem ((c.tc : Thread nD τ).loc main_v3)
          = shapeCast S8192x2048 ((dats 0 c).arrAt 4 cfg0.N) shapeCasts_S8x1024x2048_S8192x2048) :=
  Pipeline.θ_run_region_pf_tail (fun q => (cfgs q).toPCfg (Val := Elt F)) (fun q => (cfgs q).toPCfg_adm) dats ()
    (cellOf_inj' (fun q => (cfgs q).toPCfg_adm)) (0 : Fin 1) winFacts₀0 (Pipeline.OwnSemFacts.none _) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells (Pipeline.pin (fun q => (cfgs q).toPCfg (Val := Elt F)) (fun q => (cfgs q).toPCfg_adm)) (cellOf_inj' _))
      (Pipeline.launchToks (Pipeline.pin (fun q => (cfgs q).toPCfg (Val := Elt F)) (fun q => (cfgs q).toPCfg_adm)) (cellOf_inj' _)))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) (cellOf_inj' _))
          (Pipeline.launchToks (Pipeline.pin (fun q => (cfgs q).toPCfg (Val := Elt F)) (fun q => (cfgs q).toPCfg_adm)) (cellOf_inj' _)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_split5 m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => restAfter m c ((dats 0 c).arrAt 4 (cfgs 0).N))
    (hX := fun c => by
      rw [show (Pipeline.unscopedRestP ((cfgs 0).toPCfg (Val := Elt F)).pre spec0 c (V m c) : sProp 𝕄)
        = Pipeline.unscopedRest spec0 c (V m c) from Pipeline.unscopedRestP_none _ _ _]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m c (dats 0 c) (hq0 c) (hq1 c) (hq2 c) (hq3 c) Q')
    (QY := fun c s => s.mem ((c.tc : Thread nD τ).loc main_arg0) = V m c main_arg0
      ∧ s.mem ((c.tc : Thread nD τ).loc main_v3) = outFlat c ((dats 0 c).arrAt 4 (cfgs 0).N))
    (hY := fun c s' => by
      unfold restAfter
      iintro ⟨-, ⟨R0, R1, R2⟩, HSI⟩
      icombine HSI R0 gives %h0
      icombine HSI R2 gives %h2
      imodintro
      isplitr
      · ipureintro; exact ⟨Buf.eq_of_forall_mem_univ h0, Buf.eq_of_forall_mem_univ h2⟩
      · iexact HSI)
    (hQ := fun s h c => ⟨(h c).1, (h c).2.2.1.trans (V_main_arg0 m c), (h c).2.2.2⟩)

end Cert.Kernel.Hand

end
-- ==== Proof.K.Frame.lean ====
/-
  The kernel's run and its frame, for any float values: every weakly fair execution of @main terminates
  without a fault; each of the pipeline's arrays ends at what the proof data computes — an input array as the region
  found it, the output array with every block written back —; the first argument, which only the host lines read, is
  untouched; and the result is the output array reshaped. The three argument arrays therefore end as they began: the
  activations bypass the region, the fused weights and the down projection are arrays the region only reads.
-/
import proofs.«134587_j38036230373627_2_alg».proof.Proof.K.Body
import proofs.«134587_j38036230373627_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every array of the pipeline, the first argument and the result named. -/
theorem run_main : θ_run defs (onTc (τ := τ) (main (F := F))) (s₀ m ρ) (fun r => ∀ c : Dev nD,
      (∀ w, r.2.mem ((cfg0.spec w).arr.view.loc (c.tc : Thread nD τ)) = (dats m 0 c).arrAt w cfg0.N)
      ∧ r.2.mem ((c.tc : Thread nD τ).loc main_arg0) = m ((c.tc : Thread nD τ).loc main_arg0)
      ∧ r.2.mem ((c.tc : Thread nD τ).loc main_v3)
          = shapeCast S8192x2048 ((dats m 0 c).arrAt 4 cfg0.N) shapeCasts_S8x1024x2048_S8192x2048) :=
  run_of m ρ (dats m) (fun c => (body_obligation m c).loose) (q0 m) (q1 m) (q2 m) (q3 m)
    (fun _ _ => rfl) (A_eq m) (hin m) (hout m)

/-- The fused weights, read through the gate window, end as the launch left them: an input window's array is never
    written, and the host lines before the region do not touch it. -/
theorem arg1_kept (c : Dev nD) : (dats m 0 c).arrAt 1 cfg0.N = m ((c.tc : Thread nD τ).loc main_arg1) :=
  ((dats m 0 c).arrAt_in 1 rfl _).trans ((A_eq m c 1).trans (V_main_arg1 m c))
/-- The same for the down projection. -/
theorem arg2_kept (c : Dev nD) : (dats m 0 c).arrAt 3 cfg0.N = m ((c.tc : Thread nD τ).loc main_arg2) :=
  ((dats m 0 c).arrAt_in 3 rfl _).trans ((A_eq m c 3).trans (V_main_arg2 m c))

/-- THE FRAME: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).2.1, ((h c).1 1).trans (arg1_kept m c), ((h c).1 3).trans (arg2_kept m c)⟩) (run_main m ρ)

end Cert.Kernel.Hand

end
-- ==== Proof.KI.Base.lean ====
/-
  What everything about the idealized kernel's run is stated over, for any float values `F`.

  @main is: two host lines (the activations reshaped to [8, 1024, 2048], then rounded to bf16), the one kernel region on
  the grid (expert, token tile, intermediate chunk) = 8 × 2 × 16 walked with the chunk axis innermost, and one host line
  after it (the result reshaped back to [8192, 2048]). Point `t` of the grid has chunk coordinate `t % 16`: the body
  zeroes its accumulator exactly at the points with `t % 16 = 0` and stores the accumulator into the output block exactly
  at those with `t % 16 = 15`; at every other point the output block is left alone and is not written back.
-/
import proofs.«134587_j38036230373627_2_alg».proof.Proof.Gen.KernelIdeal.Launch
import proofs.«134587_j38036230373627_2_alg».proof.Proof.Gen.KernelIdeal.Skeleton
import proofs.«134587_j38036230373627_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the line after it, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region write neither argument array it reads nor the first argument. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results
theorem V_main_arg2 (c : Dev nD) : V m c main_arg2 = m ((c : Thread nD τ).loc main_arg2) := by
  show StableHlo.after hostOps0 (fun b => m (c, b)) (Proc.devRef .tc main_arg2) = _
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form over the grid -/

/-- "This is the first chunk" (`k == 0`), as the body computes it from the coordinates. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last chunk" (`k == 15`). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last chunk the output block is idle and is not written back; on it, it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The staging memrefs the body is called with, and the accumulator -/

abbrev ms0_0 (t : Fin cfg0.N) : Memref sig .tc .vmem S1x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .f32 := win0_4.stage (cfg0.slots t 4)
abbrev hs0_4 (t : Fin cfg0.N) : (ms0_4 t).IsWhole := hstage0_4 ((cfg0.slots t 4).cast nbuf0_4)

/-- The accumulator: the kernel's one scratch buffer, kept from point to point. -/
abbrev scM0_0 : Memref sig .tc .vmem S512x2048 .f32 := Memref.whole cc0_scratch0
abbrev VS0_0 : View sig .tc .vmem S512x2048 .f32 := scM0_0.view
/-- One staging buffer of the output window, through which its contents are stated. -/
abbrev VO0_4 : View sig .tc .vmem S1x512x2048 .f32 := (Memref.whole cc0_stg4_0 : Memref sig .tc .vmem S1x512x2048 .f32).view

/-- What the region hands the body besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.Data.lean ====
/-
  The proof data of the kernel's one pipeline, for any float values.

  The accumulator after point `n`: at a first chunk (`n % 16 = 0`) the body zeroes it and adds this point's
  contribution, so it holds the point's arithmetic applied to the zero block; at any other point it holds the
  point's arithmetic applied to what the point before left. The output block, at a last chunk (`n % 16 = 15`),
  receives the accumulator reshaped. Every input block is left as it was found. The fused weight array is read
  through two windows (the gate columns and the up columns), each holding one half of the array's share.
-/
import proofs.«134587_j38036230373627_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- What the accumulator holds after the body at position `n`. -/
def accAt (c : Dev nD) : (n : ℕ) → n < cfg0.N → Vec F S512x2048 .f32
  | 0, hn => k0_pay2 (iblk m c 0 ⟨0, hn⟩) (iblk m c 1 ⟨0, hn⟩) (iblk m c 2 ⟨0, hn⟩) (iblk m c 3 ⟨0, hn⟩) (k0_pay1 (F := F))
  | n + 1, hn =>
    if (n + 1) % 16 = 0 then
      k0_pay2 (iblk m c 0 ⟨n + 1, hn⟩) (iblk m c 1 ⟨n + 1, hn⟩) (iblk m c 2 ⟨n + 1, hn⟩) (iblk m c 3 ⟨n + 1, hn⟩) (k0_pay1 (F := F))
    else
      k0_pay2 (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a first chunk: this point's contribution added to zero. -/
theorem accAt_first (c : Dev nD) (t : Fin cfg0.N) (h0 : t.val % 16 = 0) :
    accAt m c t.val t.isLt = k0_pay2 (iblk m c 0 t) (iblk m c 1 t) (iblk m c 2 t) (iblk m c 3 t) (k0_pay1 (F := F)) := by
  obtain ⟨n, hn⟩ := t
  cases n with
  | zero => rfl
  | succ n => exact if_pos h0

/-- At a later chunk: this point's contribution added to what the point before left. -/
theorem accAt_next (c : Dev nD) (t : Fin cfg0.N) (h0 : ¬t.val % 16 = 0) :
    accAt m c t.val t.isLt = k0_pay2 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h0
  | succ n => exact if_neg h0

/-! ## The invariant carried from point to point -/

/-- Before the first point the accumulator holds anything; before any later point, what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; after the body each input's buffer at its block and the output's at the
    accumulator reshaped; the invariant `PhiS`; the fused weights' share halved between the two windows that read
    them; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (accAt m c t.val t.isLt)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay3 (accAt m c t.val t.isLt) := by dsimp only [dats]

theorem q0 (c : Dev nD) : (dats m 0 c).q 0 = fullShare := rfl
theorem q1 (c : Dev nD) : (dats m 0 c).q 1 = fullShare.left := rfl
theorem q2 (c : Dev nD) : (dats m 0 c).q 2 = fullShare.right := rfl
theorem q3 (c : Dev nD) : (dats m 0 c).q 3 = fullShare := rfl

/-! ## Each input's buffer holds its block at every point, fetched there or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The invariant at the region's ends -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.Runs.lean ====
/-
  The kernel body's run, one statement per control case, for any float values `F`.

  The body reads the four input blocks, adds the chunk's contribution to the accumulator, and — depending on the
  chunk coordinate — first zeroes the accumulator (first chunk) or finally copies it into the output block (last
  chunk). Each statement below says: started on whole memrefs holding the given contents, the body runs to a
  continuation that gets the inputs back as they were and each written buffer with the list of pieces stored into it
  (last store first). The lists are the witnesses found while the run is carried out.

  The second half reads the lists back: every store is the whole buffer at zero offsets, so each list covers its buffer
  and leaves the payload of its last store. This gives the same three statements with the written buffers owned at named
  contents: the accumulator at the chunk's contribution added to what it held (the zero block in the first chunk), and
  in the last chunk the output block at that accumulator under a leading unit axis.
-/
import proofs.«134587_j38036230373627_2_alg».proof.Proof.KI.Base
import Idealize.ShloMosaic.Lib.Ring
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First chunk (`k = 0`, not the last): the accumulator, whatever it held, is zeroed and then receives the chunk's
    contribution; the output block is not touched and comes back as it was. -/
noncomputable def kernelRun0_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) :
    Σ' (L4 : List (View.Piece (Elt F) S1x512x2048 .f32)), { LS0 : List (View.Piece (Elt F) S512x2048 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨[], ?_, fun xi4 E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- A middle chunk (neither first nor last): the accumulator comes in at what the point before left and receives the
    chunk's contribution; the output block is not touched and comes back as it was. -/
noncomputable def kernelRun0_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) :
    Σ' (L4 : List (View.Piece (Elt F) S1x512x2048 .f32)), { LS0 : List (View.Piece (Elt F) S512x2048 .f32) //
      ∀ (xi4 : Vec F S1x512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨[], ?_, fun xi4 E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- Last chunk (`k = 15`, not the first): the accumulator receives the chunk's contribution and is then copied, with a
    leading unit axis, into the output block, which may have held anything. -/
noncomputable def kernelRun0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) :
    Σ' (L4 : List (View.Piece (Elt F) S1x512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨?_, ?_, fun E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-! ## What the written buffers hold, by name

Every store of the body is one rectangle: the whole buffer at zero offsets. So each list of pieces covers its buffer,
and read back it is the payload of its last store, whose loads read whole buffers too. -/

theorem hz2 : (![0, 0] : Fin 2 → Nat) = fun _ => 0 := funext fun a => by fin_cases a <;> rfl
theorem hz3 : (![0, 0, 0] : Fin 3 → Nat) = fun _ => 0 := funext fun a => by fin_cases a <;> rfl

/-- First chunk: the accumulator's pieces cover it. -/
theorem scover0_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) (y : S512x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S512x2048.size (by sl_kernel_rfl) y

/-- A middle chunk: the accumulator's piece covers it. -/
theorem scover0_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) (y : S512x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S512x2048.size (by sl_kernel_rfl) y

/-- Last chunk: the accumulator's piece covers it, -/
theorem scover0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (y : S512x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S512x2048.size (by sl_kernel_rfl) y

/-- and the output block's piece covers it. -/
theorem cover0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (y : S1x512x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x512x2048.size (by sl_kernel_rfl) y

/-- First chunk: the accumulator ends at the chunk's contribution added to the zero block it was just filled with. -/
theorem sval0_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) (f : arg8.view.ty.Contents (Elt F)) :
    arg8.view.read (Elt F) (arg8.view.writes (Elt F) f (kernelRun0_A c i arg3 harg3 arg4 harg4 arg5 harg5 arg6 harg6 arg7 harg7 arg8 harg8 hc0 hc1 x0 x1 x2 x3).2.1)
      = k0_pay2 x0 x1 x2 x3 (k0_pay1 (F := F)) := by
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-- A middle chunk: the accumulator ends at the chunk's contribution added to what it held. -/
theorem sval0_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) (f : arg8.view.ty.Contents (Elt F)) :
    arg8.view.read (Elt F) (arg8.view.writes (Elt F) f (kernelRun0_B c i arg3 harg3 arg4 harg4 arg5 harg5 arg6 harg6 arg7 harg7 arg8 harg8 hc0 hc1 x0 x1 x2 x3 xs0).2.1)
      = k0_pay2 x0 x1 x2 x3 xs0 := by
  rw [View.read_writes_eq_canon _ _ _ (scover0_B c i arg3 harg3 arg4 harg4 arg5 harg5 arg6 harg6 arg7 harg7 arg8 harg8 hc0 hc1 x0 x1 x2 x3 xs0)]
  unfold kernelRun0_B
  dsimp only
  rw [View.canon_unit_zero (S := S512x2048) hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-- Last chunk: the accumulator ends as in a middle chunk, -/
theorem sval0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (f : arg8.view.ty.Contents (Elt F)) :
    arg8.view.read (Elt F) (arg8.view.writes (Elt F) f (kernelRun0_C c i arg3 harg3 arg4 harg4 arg5 harg5 arg6 harg6 arg7 harg7 arg8 harg8 hc0 hc1 x0 x1 x2 x3 xs0).2.1)
      = k0_pay2 x0 x1 x2 x3 xs0 := by
  rw [View.read_writes_eq_canon _ _ _ (scover0_C c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x2048) hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-- and the output block ends at that accumulator under a leading unit axis. -/
theorem val0_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (f : arg7.view.ty.Contents (Elt F)) :
    arg7.view.read (Elt F) (arg7.view.writes (Elt F) f (kernelRun0_C c i arg3 harg3 arg4 harg4 arg5 harg5 arg6 harg6 arg7 harg7 arg8 harg8 hc0 hc1 x0 x1 x2 x3 xs0).1)
      = k0_pay3 (k0_pay2 x0 x1 x2 x3 xs0) := by
  rw [View.read_writes_eq_canon _ _ _ (cover0_C c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1x512x2048) hz3, View.readCov_unit_zero (S := S512x2048) _ hz2]
  simp only [View.readAt_eq_ld, harg3.read_unread, harg4.read_unread, harg5.read_unread, harg6.read_unread, harg8.read_unread, View.ld_unit_zero (S := S1x512x2048) hz3, View.ld_unit_zero (S := S1x2048x256) hz3, View.ld_unit_zero (S := S1x256x2048) hz3, View.ld_unit_zero (S := S512x2048) hz2]

/-! ## The runs with the written buffers named -/

/-- First chunk. -/
theorem run_A (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i)
    (x0 : Vec F S1x512x2048 .bf16) (x1 x2 : Vec F S1x2048x256 .f32) (x3 : Vec F S1x256x2048 .f32) (xi4 : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare (k0_pay2 x0 x1 x2 x3 (k0_pay1 (F := F)))) -∗ K ⟨⟩))
      ⊢ wp frame (wpE (defs₀ (F := F)) Variants.none c none) E (cc0__experts_kernel i arg3 harg3 arg4 harg4 arg5 harg5 arg6 harg6 arg7 harg7 arg8 harg8) K := by
  iintro ⟨H0, H1, H2, H3, H4, HS0, Hk⟩
  iapply ((kernelRun0_A c i arg3 harg3 arg4 harg4 arg5 harg5 arg6 harg6 arg7 harg7 arg8 harg8 hc0 hc1 x0 x1 x2 x3).2.2 xi4 E K)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  iapply Hk
  isplitl [H0]; · iexact H0
  isplitl [H1]; · iexact H1
  isplitl [H2]; · iexact H2
  isplitl [H3]; · iexact H3
  isplitl [H4]; · iexact H4
  unfold owns; iexists _; isplitr
  swap; · iexact HS0
  ipureintro; exact sval0_A c i arg3 harg3 arg4 harg4 arg5 harg5 arg6 harg6 arg7 harg7 arg8 harg8 hc0 hc1 x0 x1 x2 x3 _

/-- A middle chunk. -/
theorem run_B (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i)
    (x0 : Vec F S1x512x2048 .bf16) (x1 x2 : Vec F S1x2048x256 .f32) (x3 : Vec F S1x256x2048 .f32) (xs0 : Vec F S512x2048 .f32) (xi4 : Vec F S1x512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare (k0_pay2 x0 x1 x2 x3 xs0)) -∗ K ⟨⟩))
      ⊢ wp frame (wpE (defs₀ (F := F)) Variants.none c none) E (cc0__experts_kernel i arg3 harg3 arg4 harg4 arg5 harg5 arg6 harg6 arg7 harg7 arg8 harg8) K := by
  iintro ⟨H0, H1, H2, H3, H4, HS0, Hk⟩
  iapply ((kernelRun0_B c i arg3 harg3 arg4 harg4 arg5 harg5 arg6 harg6 arg7 harg7 arg8 harg8 hc0 hc1 x0 x1 x2 x3 xs0).2.2 xi4 E K)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, ⟨%es0, HS0⟩⟩
  iapply Hk
  isplitl [H0]; · iexact H0
  isplitl [H1]; · iexact H1
  isplitl [H2]; · iexact H2
  isplitl [H3]; · iexact H3
  isplitl [H4]; · iexact H4
  unfold owns; iexists _; isplitr
  swap; · iexact HS0
  ipureintro; exact sval0_B c i arg3 harg3 arg4 harg4 arg5 harg5 arg6 harg6 arg7 harg7 arg8 harg8 hc0 hc1 x0 x1 x2 x3 xs0 _

/-- Last chunk. -/
theorem run_C (c : Dev nD) (i : grid0.Coords) (arg3 : Memref sig .tc .vmem S1x512x2048 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i)
    (x0 : Vec F S1x512x2048 .bf16) (x1 x2 : Vec F S1x2048x256 .f32) (x3 : Vec F S1x256x2048 .f32) (xs0 : Vec F S512x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 (k0_pay2 x0 x1 x2 x3 xs0)) ∗ owns (c : Thread nD τ) arg8 fullShare (k0_pay2 x0 x1 x2 x3 xs0)) -∗ K ⟨⟩))
      ⊢ wp frame (wpE (defs₀ (F := F)) Variants.none c none) E (cc0__experts_kernel i arg3 harg3 arg4 harg4 arg5 harg5 arg6 harg6 arg7 harg7 arg8 harg8) K := by
  iintro ⟨H0, H1, H2, H3, H4, HS0, Hk⟩
  iapply ((kernelRun0_C c i arg3 harg3 arg4 harg4 arg5 harg5 arg6 harg6 arg7 harg7 arg8 harg8 hc0 hc1 x0 x1 x2 x3 xs0).2.2 E K)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, ⟨%e4, H4⟩, ⟨%es0, HS0⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact val0_C c i arg3 harg3 arg4 harg4 arg5 harg5 arg6 harg6 arg7 harg7 arg8 harg8 hc0 hc1 x0 x1 x2 x3 xs0 _
  unfold owns; iexists _; isplitr
  swap; · iexact HS0
  ipureintro; exact sval0_C c i arg3 harg3 arg4 harg4 arg5 harg5 arg6 harg6 arg7 harg7 arg8 harg8 hc0 hc1 x0 x1 x2 x3 xs0 _

end Cert.KernelIdeal.Hand

end
-- ==== Proof.KI.Body.lean ====
/-
  The body obligation: at every grid point the kernel body, handed the invariant and its five current staging
  buffers, leaves the invariant for the next point and each buffer at what the proof data says.

  Three kinds of point. A first chunk (`t % 16 = 0`): the accumulator comes in at anything and goes out at this
  point's contribution added to zero; the output block is left alone. A middle chunk: the accumulator comes in at
  what the point before left and goes out with this point's contribution added; the output block is left alone. A
  last chunk (`t % 16 = 15`): as a middle chunk, and the output block receives the accumulator. The inputs' buffers
  hold their blocks throughout.
-/
import proofs.«134587_j38036230373627_2_alg».proof.Proof.KI.Data
import proofs.«134587_j38036230373627_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 256 := lt_of_lt_of_eq t.isLt (show cfg0.N = 256 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dats m 0 c) 4 t (idleAt0_4 t hc1) (noFlush0_4 t hc1)]
    rw [accAt_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply (run_A c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond0_0 (grid0.coords t) := fun h => h0 ((hcond0_0 t).mp h)
    rw [accAt_next m c t h0]
    rw [PhiS_castSucc m c t, PhiS_pos m c _ _ hz]
    by_cases h1 : t.val % 16 = 15
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4, accAt_next m c t h0]
      iintro ⟨⟨HS0, Hg⟩, Ho, ⟨%d0, H0⟩, ⟨%d1, H1⟩, ⟨%d2, H2⟩, ⟨%d3, H3⟩, ⟨%d4, H4⟩⟩
      iapply (run_C c (grid0.coords t) _ _ _ _ _ _ _ _ _ _ _ _ hc0 hc1 (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m 0 c) 4 t (idleAt0_4 t hc1) (noFlush0_4 t hc1)]
      iintro ⟨⟨HS0, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ hc0 hc1 (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of @main around the kernel region, for any float values `F`, when two windows read one array.

  The region's five windows stand on four buffers: the rounded activations, the fused gate/up weights (read by window 1
  for the gate half and by window 2 for the up half), the down projection, and the output. The launch hands the region
  each buffer whole; the pipeline wants one holding per window. The shared buffer's full share is cut in two halves,
  the left for window 1 and the right for window 2 — both windows only read, so a half each suffices — and at the
  region's exit nothing needs to be put back together: the one host line after the region reshapes the output array,
  which window 4 holds whole, into the last buffer, which bypasses the region. The run's post reads the arrays at what
  the proof data compute after the last grid point, the first argument at its launch contents, and the last buffer at
  the output array flattened to [8192, 2048].
-/
import proofs.«134587_j38036230373627_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging cells are pairwise distinct at the one admissible table contents. -/
theorem cellOf_inj' (a : (p : Fin 1) → ((cfgs p).toPCfg (Val := Elt F)).Adm) :
    Function.Injective (cellOf (nD := nD) (τ := τ) (Pipeline.pin (fun q => (cfgs q).toPCfg (Val := Elt F)) a)) := by
  rw [Subsingleton.elim a fun q => (cfgs q).toPCfg_adm]; exact cellOf_inj

/-! ## The five windows' arrays as four buffers

Windows 1 and 2 read the same buffer (the fused gate/up weights): the pipeline holds it once per window, at the left and
the right half of the full share, and the two halves together are the whole buffer. -/

section Arrays

variable {m}
variable (c : Dev nD) (dat : Dat τ (Elt F) Unit ℕ (UR sig nD τ) ℕ (cfgs 0) c)

/-- The shares the five arrays are held at, from the shares of the four inputs. -/
theorem shares (hq0 : dat.q 0 = fullShare) (hq1 : dat.q 1 = fullShare.left) (hq2 : dat.q 2 = fullShare.right)
    (hq3 : dat.q 3 = fullShare) :
    dat.share 0 = fullShare ∧ dat.share 1 = fullShare.left ∧ dat.share 2 = fullShare.right ∧ dat.share 3 = fullShare
      ∧ dat.share 4 = fullShare :=
  ⟨(if_neg (by decide)).trans hq0, (if_neg (by decide)).trans hq1, (if_neg (by decide)).trans hq2,
    (if_neg (by decide)).trans hq3, if_pos (by decide)⟩

/-- The pipeline's arrays, window by window, each a whole buffer at its share. -/
theorem arrays_five (hq0 : dat.q 0 = fullShare) (hq1 : dat.q 1 = fullShare.left) (hq2 : dat.q 2 = fullShare.right)
    (hq3 : dat.q 3 = fullShare)
    (A : (w : Fin (cfgs 0).W) → Buf (Elt F) (((cfgs 0).win w).arr.view.loc (c.tc : Thread nD τ))) :
    (dat.arrays A : sProp 𝕄)
      = iprop((((c.tc : Thread nD τ).loc main_v1) ↦{fullShare} A 0)
          ∗ (((c.tc : Thread nD τ).loc main_arg1) ↦{fullShare.left} A 1)
          ∗ (((c.tc : Thread nD τ).loc main_arg1) ↦{fullShare.right} A 2)
          ∗ (((c.tc : Thread nD τ).loc main_arg2) ↦{fullShare} A 3)
          ∗ (((c.tc : Thread nD τ).loc main_v2) ↦{fullShare} A 4)) := by
  obtain ⟨h0, h1, h2, h3, h4⟩ := shares c dat hq0 hq1 hq2 hq3
  unfold Dat.arrays
  rw [bigSep_W0, (arr_whole0 0).set_eq_univ, (arr_whole0 1).set_eq_univ,
    (arr_whole0 3).set_eq_univ, (arr_whole0 4).set_eq_univ, h0, h1, h2, h3, h4]

end Arrays

section Split

variable (c : Dev nD) (dat : Dat τ (Elt F) Unit ℕ (UR sig nD τ) ℕ (cfgs 0) c)

/-- The four distinct buffers behind the five windows' arrays, one by one. -/
theorem arrBufs_four (Vc : (b : Ref sig .tc) → Buf (Elt F) ((c.tc : Thread nD τ).loc b)) :
    (Pipeline.arrBufs (Ix := Unit) (Name := ℕ) (U := UR sig nD τ) (Lvl := ℕ) spec0 c Vc : sProp 𝕄)
      = iprop((((c.tc : Thread nD τ).loc main_v1) ↦{fullShare} Vc main_v1)
          ∗ (((c.tc : Thread nD τ).loc main_arg1) ↦{fullShare} Vc main_arg1)
          ∗ (((c.tc : Thread nD τ).loc main_arg2) ↦{fullShare} Vc main_arg2)
          ∗ (((c.tc : Thread nD τ).loc main_v2) ↦{fullShare} Vc main_v2)) := by
  unfold Pipeline.arrBufs
  exact bigSep_eq_bigSepL_of_eq [main_v1, main_arg1, main_arg2, main_v2] (by decide) (by decide) _

/-- The launch's four whole buffers are the pipeline's five arrays at entry: the shared buffer's full share splits
    into the halves windows 1 and 2 hold. -/
theorem arrays_split5 (hq0 : dat.q 0 = fullShare) (hq1 : dat.q 1 = fullShare.left) (hq2 : dat.q 2 = fullShare.right)
    (hq3 : dat.q 3 = fullShare) (hA : ∀ w, dat.A w = V m c (Pipeline.arrRef spec0 w)) :
    (Pipeline.arrBufs (Ix := Unit) (Name := ℕ) (U := UR sig nD τ) (Lvl := ℕ) spec0 c (V m c) : sProp 𝕄)
      ⊢ dat.arrays (dat.arrAt · 0) := by
  have e : ∀ w, dat.arrAt w 0 = V m c (Pipeline.arrRef spec0 w) := fun w => hA w
  rw [arrBufs_four, arrays_five c dat hq0 hq1 hq2 hq3]
  beta_reduce
  rw [e 0, e 1, e 2, e 3, e 4]
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

end Split

/-! ## The line after the region

The one host line after the region reshapes the output array (window 4's, held whole) into the last buffer, which
bypasses the region. It runs holding those two buffers and nothing else. -/

section Tail

variable (c : Dev nD)

/-- The contents the line starts from: the region-entry contents, with the output array at `a`. -/
def tailV (a : Buf (Elt F) ((c.tc : Thread nD τ).loc main_v2)) : Valuation τ sig (Elt F) :=
  Function.update (V0 m c) (Proc.devRef .tc main_v2) a

theorem tailV_v2 (a : Buf (Elt F) ((c.tc : Thread nD τ).loc main_v2)) :
    tailV m c a (Proc.devRef .tc main_v2) = a := by
  unfold tailV; exact Function.update_self _ _ _

theorem tailV_v3 (a : Buf (Elt F) ((c.tc : Thread nD τ).loc main_v2)) :
    tailV m c a (Proc.devRef .tc main_v3) = V m c main_v3 := by
  unfold tailV; exact Function.update_of_ne (StableHlo.devRef_ne_of_ne (by decide)) _ _

/-- The output array flattened to [8192, 2048]: what the line writes. -/
abbrev outFlat (a : Buf (Elt F) ((c.tc : Thread nD τ).loc main_v2)) : Buf (Elt F) ((c.tc : Thread nD τ).loc main_v3) :=
  shapeCast S8192x2048 a shapeCasts_S8x1024x2048_S8192x2048

theorem after_v2 (a : Buf (Elt F) ((c.tc : Thread nD τ).loc main_v2)) :
    StableHlo.after hostOps1 (tailV m c a) (Proc.devRef .tc main_v2) = a := by
  after_results
  exact tailV_v2 m c a

theorem after_v3 (a : Buf (Elt F) ((c.tc : Thread nD τ).loc main_v2)) :
    StableHlo.after hostOps1 (tailV m c a) (Proc.devRef .tc main_v3) = outFlat c a := by
  after_results
  rw [tailV_v2]
  rfl

end Tail

section TailRun

variable (c : Dev nD) (dat : Dat τ (Elt F) Unit ℕ (UR sig nD τ) ℕ (cfgs 0) c)

/-- The two buffers the line touches. -/
abbrev tailSet : Finset (DevRef τ sig) := {Proc.devRef .tc main_v2, Proc.devRef .tc main_v3}

theorem held_tailSet (Wv : Valuation τ sig (Elt F)) :
    (StableHlo.held (c.tc : Thread nD τ) tailSet Wv : sProp 𝕄)
      = iprop((((c.tc : Thread nD τ).loc main_v2) ↦{fullShare} Wv (Proc.devRef .tc main_v2))
          ∗ (((c.tc : Thread nD τ).loc main_v3) ↦{fullShare} Wv (Proc.devRef .tc main_v3))) := by
  unfold StableHlo.held tailSet
  rw [bigSep_insert (by rw [Finset.mem_singleton]; exact StableHlo.devRef_ne_of_ne (by decide)), bigSep_singleton]
  rfl

theorem tail_sub : ∀ ops ∈ [(hostOps1 : List (HloOp τ sig (Elt F)))], ∀ op ∈ ops, op.bufs ⊆ tailSet := by
  intro ops hops op hop
  obtain rfl := List.mem_singleton.mp hops
  obtain rfl := List.mem_singleton.mp hop
  exact Finset.Subset.refl _

theorem tail_fresh : ∀ ops ∈ [(hostOps1 : List (HloOp τ sig (Elt F)))], ∀ op ∈ ops, op.fresh = ∅ := by
  intro ops hops op hop
  obtain rfl := List.mem_singleton.mp hops
  exact List.forall_iff_forall_mem.mp hostOps1_fresh op hop

/-- What bypasses the region, after the line: the first argument and the reshaped activations as the region found
    them, and the last buffer at the output array flattened. -/
def restAfter (a : Buf (Elt F) ((c.tc : Thread nD τ).loc main_v2)) : sProp 𝕄 :=
  iprop((((c.tc : Thread nD τ).loc main_arg0) ↦{fullShare} V m c main_arg0)
      ∗ (((c.tc : Thread nD τ).loc main_v0) ↦{fullShare} V m c main_v0)
      ∗ (((c.tc : Thread nD τ).loc main_v3) ↦{fullShare} outFlat c a))

set_option backward.isDefEq.respectTransparency.types false in
/-- From the region's exit the line runs and hands back the arrays as they were and the bypassing buffers with the
    last one rewritten. -/
theorem tail_run (hq0 : dat.q 0 = fullShare) (hq1 : dat.q 1 = fullShare.left) (hq2 : dat.q 2 = fullShare.right)
    (hq3 : dat.q 3 = fullShare) (Q' : PUnit → sProp 𝕄) :
    iprop((iprop(dat.arrays (dat.arrAt · (cfgs 0).N) ∗ restAfter m c (dat.arrAt 4 (cfgs 0).N)) -∗ Q' ⟨⟩)
        ∗ boundary (c.tc : Thread nD τ) ∗ dat.arrays (dat.arrAt · (cfgs 0).N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_five c dat hq0 hq1 hq2 hq3, unscopedRest0_eq]
  unfold restAfter
  beta_reduce
  change _ ⊢ wp frame _ Set.univ (Pipeline.chain (List.map StableHlo.seq [hostOps1] ++ [])) Q'
  iintro ⟨Hk, Hb, ⟨A0, A1, A2, A3, A4⟩, ⟨R0, R1, R2⟩⟩
  ihave Hh := (show iprop((((c.tc : Thread nD τ).loc main_v2) ↦{fullShare} dat.arrAt 4 (cfgs 0).N)
        ∗ (((c.tc : Thread nD τ).loc main_v3) ↦{fullShare} V m c main_v3))
      ⊢ (StableHlo.held (c.tc : Thread nD τ) tailSet (tailV m c (dat.arrAt 4 (cfgs 0).N)) : sProp 𝕄) from by
        rw [held_tailSet, tailV_v2, tailV_v3]) $$ [A4 R2]
  · isplitl [A4]; · iexact A4
    iexact R2
  iapply (Pipeline.wp_seqs_then (fun q => (cfgs q).toPCfg (Val := Elt F)) defs₀ Variants.none c tailSet [] [hostOps1]
    tail_sub tail_fresh (tailV m c (dat.arrAt 4 (cfgs 0).N))) $$ [Hb Hh]
  · isplitl [Hb]; · iexact Hb
    iexact Hh
  iintro ⟨Hb, Hh⟩
  rw [Pipeline.chain_nil, wp_pure]
  imodintro
  iapply Hk
  ihave Hh' := (show (StableHlo.held (c.tc : Thread nD τ) tailSet
        (StableHlo.after ([hostOps1] : List (List (HloOp τ sig (Elt F)))).flatten (tailV m c (dat.arrAt 4 (cfgs 0).N))) : sProp 𝕄)
      ⊢ iprop((((c.tc : Thread nD τ).loc main_v2) ↦{fullShare} dat.arrAt 4 (cfgs 0).N)
        ∗ (((c.tc : Thread nD τ).loc main_v3) ↦{fullShare} outFlat c (dat.arrAt 4 (cfgs 0).N))) from by
        rw [show ([hostOps1] : List (List (HloOp τ sig (Elt F)))).flatten = hostOps1 from by simp,
          held_tailSet, after_v2, after_v3]) $$ Hh
  icases Hh' with ⟨A4, R2⟩
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  iexact R2

end TailRun

/-! ## The run of @main -/

set_option backward.isDefEq.respectTransparency.types false in
/-- From any memory with zero counters, every weakly fair execution of @main on the TensorCore terminates; at the end
    every array of the pipeline holds what the proof data compute for it after the last point, the first argument is
    as it was launched, and the last buffer holds the output array flattened to [8192, 2048]. The proof data hold the
    shared weights' buffer at the left half of the full share for window 1 and at the right half for window 2. -/
theorem run_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((cfg0.spec w).arr.view.loc (c.tc : Thread nD τ)) = (dats 0 c).arrAt w cfg0.N)
      ∧ r.2.mem ((c.tc : Thread nD τ).loc main_arg0) = m ((c.tc : Thread nD τ).loc main_arg0)
      ∧ r.2.mem ((c.tc : Thread nD τ).loc main_v3)
          = shapeCast S8192x2048 ((dats 0 c).arrAt 4 cfg0.N) shapeCasts_S8x1024x2048_S8192x2048) :=
  Pipeline.θ_run_region_pf_tail (fun q => (cfgs q).toPCfg (Val := Elt F)) (fun q => (cfgs q).toPCfg_adm) dats ()
    (cellOf_inj' (fun q => (cfgs q).toPCfg_adm)) (0 : Fin 1) winFacts₀0 (Pipeline.OwnSemFacts.none _) (Pipeline.PreFacts.none _) emb₁ defs₀ Variants.none m ρ main
    (fun _ => Pipeline.chain [StableHlo.seq hostOps1]) hbody block_pos0 arr_whole0 stage_whole0 howed
    (G := fun _ => iprop(emp))
    (u₀ := initOf (Pipeline.cells (Pipeline.pin (fun q => (cfgs q).toPCfg (Val := Elt F)) (fun q => (cfgs q).toPCfg_adm)) (cellOf_inj' _))
      (Pipeline.launchToks (Pipeline.pin (fun q => (cfgs q).toPCfg (Val := Elt F)) (fun q => (cfgs q).toPCfg_adm)) (cellOf_inj' _)))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) (cellOf_inj' _))
          (Pipeline.launchToks (Pipeline.pin (fun q => (cfgs q).toPCfg (Val := Elt F)) (fun q => (cfgs q).toPCfg_adm)) (cellOf_inj' _)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_split5 m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => restAfter m c ((dats 0 c).arrAt 4 (cfgs 0).N))
    (hX := fun c => by
      rw [show (Pipeline.unscopedRestP ((cfgs 0).toPCfg (Val := Elt F)).pre spec0 c (V m c) : sProp 𝕄)
        = Pipeline.unscopedRest spec0 c (V m c) from Pipeline.unscopedRestP_none _ _ _]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m c (dats 0 c) (hq0 c) (hq1 c) (hq2 c) (hq3 c) Q')
    (QY := fun c s => s.mem ((c.tc : Thread nD τ).loc main_arg0) = V m c main_arg0
      ∧ s.mem ((c.tc : Thread nD τ).loc main_v3) = outFlat c ((dats 0 c).arrAt 4 (cfgs 0).N))
    (hY := fun c s' => by
      unfold restAfter
      iintro ⟨-, ⟨R0, R1, R2⟩, HSI⟩
      icombine HSI R0 gives %h0
      icombine HSI R2 gives %h2
      imodintro
      isplitr
      · ipureintro; exact ⟨Buf.eq_of_forall_mem_univ h0, Buf.eq_of_forall_mem_univ h2⟩
      · iexact HSI)
    (hQ := fun s h c => ⟨(h c).1, (h c).2.2.1.trans (V_main_arg0 m c), (h c).2.2.2⟩)

end Cert.KernelIdeal.Hand

end
-- ==== Proof.KI.Frame.lean ====
/-
  The idealized kernel's run and its frame, for any float values: every weakly fair execution of @main terminates
  without a fault; each of the pipeline's arrays ends at what the proof data computes — an input array as the region
  found it, the output array with every block written back —; the first argument, which only the host lines read, is
  untouched; and the result is the output array reshaped. The three argument arrays therefore end as they began: the
  activations bypass the region, the fused weights and the down projection are arrays the region only reads.
-/
import proofs.«134587_j38036230373627_2_alg».proof.Proof.KI.Body
import proofs.«134587_j38036230373627_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every array of the pipeline, the first argument and the result named. -/
theorem run_main : θ_run defs (onTc (τ := τ) (main (F := F))) (s₀ m ρ) (fun r => ∀ c : Dev nD,
      (∀ w, r.2.mem ((cfg0.spec w).arr.view.loc (c.tc : Thread nD τ)) = (dats m 0 c).arrAt w cfg0.N)
      ∧ r.2.mem ((c.tc : Thread nD τ).loc main_arg0) = m ((c.tc : Thread nD τ).loc main_arg0)
      ∧ r.2.mem ((c.tc : Thread nD τ).loc main_v3)
          = shapeCast S8192x2048 ((dats m 0 c).arrAt 4 cfg0.N) shapeCasts_S8x1024x2048_S8192x2048) :=
  run_of m ρ (dats m) (fun c => (body_obligation m c).loose) (q0 m) (q1 m) (q2 m) (q3 m)
    (fun _ _ => rfl) (A_eq m) (hin m) (hout m)

/-- The fused weights, read through the gate window, end as the launch left them: an input window's array is never
    written, and the host lines before the region do not touch it. -/
theorem arg1_kept (c : Dev nD) : (dats m 0 c).arrAt 1 cfg0.N = m ((c.tc : Thread nD τ).loc main_arg1) :=
  ((dats m 0 c).arrAt_in 1 rfl _).trans ((A_eq m c 1).trans (V_main_arg1 m c))
/-- The same for the down projection. -/
theorem arg2_kept (c : Dev nD) : (dats m 0 c).arrAt 3 cfg0.N = m ((c.tc : Thread nD τ).loc main_arg2) :=
  ((dats m 0 c).arrAt_in 3 rfl _).trans ((A_eq m c 3).trans (V_main_arg2 m c))

/-- THE FRAME: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).2.1, ((h c).1 1).trans (arg1_kept m c), ((h c).1 3).trans (arg2_kept m c)⟩) (run_main m ρ)

end Cert.KernelIdeal.Hand

end
-- ==== Proof.KI.Blocks.lean ====
/-
  Where each window's block sits in its array, and what the activations' array holds when the region is entered.

  The grid is (expert, token tile, intermediate chunk) = 8 × 2 × 16 with the chunk innermost, so point t has
  expert t / 32, token tile (t / 16) % 2 and chunk t % 16. A block's element sits in the array, on each axis, at
  block index × block size + its own coordinate. Hence at point t:
    the activations' block [1, 512, 2048] holds rows (t / 16) % 2 * 512 + p of expert t / 32;
    the gate weights' block [1, 2048, 256] holds columns (t % 16) * 256 + i of that expert's fused weights;
    the up weights' block [1, 2048, 256] holds columns 4096 + (t % 16) * 256 + i (block index t % 16 + 16);
    the down projection's block [1, 256, 2048] holds rows (t % 16) * 256 + i of that expert's down projection;
    the output's block [1, 512, 2048] holds rows (t / 16) % 2 * 512 + p of expert t / 32.
  Before the region the activations [8192, 2048] are reshaped to [8, 1024, 2048] (row e * 1024 + r becomes (e, r)) and
  rounded to bf16, which on the extended reals is the identity.
-/
import proofs.«134587_j38036230373627_2_alg».proof.Proof.KI.Base
import Idealize.ShloMosaic.Lib.ValueIdx
import Idealize.ShloMosaic.Lib.Pipeline.Value

noncomputable section

namespace Cert.KernelIdeal.Hand.Blocks

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-! ## The index maps over the grid -/

/-- The activations' block index at point t: (expert, token tile, 0). -/
theorem idx0 : ∀ t : Fin cfg0.N, win0_0.index t (0 : Fin 3) = t.val / 32 ∧ win0_0.index t (1 : Fin 3) = t.val / 16 % 2
    ∧ win0_0.index t (2 : Fin 3) = 0 :=
  (by decide +kernel : ∀ t : Fin grid0.N, _)

/-- The gate weights' block index at point t: (expert, 0, chunk). -/
theorem idx1 : ∀ t : Fin cfg0.N, win0_1.index t (0 : Fin 3) = t.val / 32 ∧ win0_1.index t (1 : Fin 3) = 0
    ∧ win0_1.index t (2 : Fin 3) = t.val % 16 :=
  (by decide +kernel : ∀ t : Fin grid0.N, _)

/-- The up weights' block index at point t: (expert, 0, chunk + 16). -/
theorem idx2 : ∀ t : Fin cfg0.N, win0_2.index t (0 : Fin 3) = t.val / 32 ∧ win0_2.index t (1 : Fin 3) = 0
    ∧ win0_2.index t (2 : Fin 3) = t.val % 16 + 16 :=
  (by decide +kernel : ∀ t : Fin grid0.N, _)

/-- The down projection's block index at point t: (expert, chunk, 0). -/
theorem idx3 : ∀ t : Fin cfg0.N, win0_3.index t (0 : Fin 3) = t.val / 32 ∧ win0_3.index t (1 : Fin 3) = t.val % 16
    ∧ win0_3.index t (2 : Fin 3) = 0 :=
  (by decide +kernel : ∀ t : Fin grid0.N, _)

/-- The output's block index at point t: (expert, token tile, 0). -/
theorem idx4 : ∀ t : Fin cfg0.N, win0_4.index t (0 : Fin 3) = t.val / 32 ∧ win0_4.index t (1 : Fin 3) = t.val / 16 % 2
    ∧ win0_4.index t (2 : Fin 3) = 0 :=
  (by decide +kernel : ∀ t : Fin grid0.N, _)

/-- The grid has 256 points. -/
theorem t_lt (t : Fin cfg0.N) : t.val < 256 := lt_of_lt_of_eq t.isLt N_0

/-! ## Each input block at an index is its array, as the region finds it, at the global index -/

/-- The activations' block: token row p of the tile, hidden unit h. -/
theorem blk0_at (c : Dev nD) (t : Fin cfg0.N) (p : Fin 512) (h : Fin 2048) :
    iblk m c 0 t (ix3 (0 : Fin 1) p h : S1x512x2048.Idx)
      = V m c main_v1 (ix3 (⟨t.val / 32, by have := t_lt t; omega⟩ : Fin 8)
          (⟨t.val / 16 % 2 * 512 + p.val, by have := p.isLt; omega⟩ : Fin 1024) h : S8x1024x2048.Idx) := by
  obtain ⟨e0, e1, e2⟩ := idx0 t
  show V m c main_v1 (((cfg0.win 0).blk t).view.emb (ix3 (0 : Fin 1) p h : S1x512x2048.Idx)) = _
  refine congrArg (V m c main_v1) ?_
  funext a; apply Fin.ext
  match a with
  | ⟨0, _⟩ => show win0_0.index t (0 : Fin 3) * 1 + 1 * 0 = t.val / 32; omega
  | ⟨1, _⟩ => show win0_0.index t (1 : Fin 3) * 512 + 1 * p.val = t.val / 16 % 2 * 512 + p.val; omega
  | ⟨2, _⟩ => show win0_0.index t (2 : Fin 3) * 2048 + 1 * h.val = h.val; omega

/-- The gate weights' block: hidden unit h, intermediate unit i of the chunk. -/
theorem blk1_at (c : Dev nD) (t : Fin cfg0.N) (h : Fin 2048) (i : Fin 256) :
    iblk m c 1 t (ix3 (0 : Fin 1) h i : S1x2048x256.Idx)
      = V m c main_arg1 (ix3 (⟨t.val / 32, by have := t_lt t; omega⟩ : Fin 8) h
          (⟨t.val % 16 * 256 + i.val, by have := i.isLt; omega⟩ : Fin 8192) : S8x2048x8192.Idx) := by
  obtain ⟨e0, e1, e2⟩ := idx1 t
  show V m c main_arg1 (((cfg0.win 1).blk t).view.emb (ix3 (0 : Fin 1) h i : S1x2048x256.Idx)) = _
  refine congrArg (V m c main_arg1) ?_
  funext a; apply Fin.ext
  match a with
  | ⟨0, _⟩ => show win0_1.index t (0 : Fin 3) * 1 + 1 * 0 = t.val / 32; omega
  | ⟨1, _⟩ => show win0_1.index t (1 : Fin 3) * 2048 + 1 * h.val = h.val; omega
  | ⟨2, _⟩ => show win0_1.index t (2 : Fin 3) * 256 + 1 * i.val = t.val % 16 * 256 + i.val; omega

/-- The up weights' block: the same place 4096 columns further. -/
theorem blk2_at (c : Dev nD) (t : Fin cfg0.N) (h : Fin 2048) (i : Fin 256) :
    iblk m c 2 t (ix3 (0 : Fin 1) h i : S1x2048x256.Idx)
      = V m c main_arg1 (ix3 (⟨t.val / 32, by have := t_lt t; omega⟩ : Fin 8) h
          (⟨4096 + t.val % 16 * 256 + i.val, by have := i.isLt; omega⟩ : Fin 8192) : S8x2048x8192.Idx) := by
  obtain ⟨e0, e1, e2⟩ := idx2 t
  show V m c main_arg1 (((cfg0.win 2).blk t).view.emb (ix3 (0 : Fin 1) h i : S1x2048x256.Idx)) = _
  refine congrArg (V m c main_arg1) ?_
  funext a; apply Fin.ext
  match a with
  | ⟨0, _⟩ => show win0_2.index t (0 : Fin 3) * 1 + 1 * 0 = t.val / 32; omega
  | ⟨1, _⟩ => show win0_2.index t (1 : Fin 3) * 2048 + 1 * h.val = h.val; omega
  | ⟨2, _⟩ => show win0_2.index t (2 : Fin 3) * 256 + 1 * i.val = 4096 + t.val % 16 * 256 + i.val; omega

/-- The down projection's block: intermediate unit i of the chunk, output unit q. -/
theorem blk3_at (c : Dev nD) (t : Fin cfg0.N) (i : Fin 256) (q : Fin 2048) :
    iblk m c 3 t (ix3 (0 : Fin 1) i q : S1x256x2048.Idx)
      = V m c main_arg2 (ix3 (⟨t.val / 32, by have := t_lt t; omega⟩ : Fin 8)
          (⟨t.val % 16 * 256 + i.val, by have := i.isLt; omega⟩ : Fin 4096) q : S8x4096x2048.Idx) := by
  obtain ⟨e0, e1, e2⟩ := idx3 t
  show V m c main_arg2 (((cfg0.win 3).blk t).view.emb (ix3 (0 : Fin 1) i q : S1x256x2048.Idx)) = _
  refine congrArg (V m c main_arg2) ?_
  funext a; apply Fin.ext
  match a with
  | ⟨0, _⟩ => show win0_3.index t (0 : Fin 3) * 1 + 1 * 0 = t.val / 32; omega
  | ⟨1, _⟩ => show win0_3.index t (1 : Fin 3) * 256 + 1 * i.val = t.val % 16 * 256 + i.val; omega
  | ⟨2, _⟩ => show win0_3.index t (2 : Fin 3) * 2048 + 1 * q.val = q.val; omega

/-- Where an element of the output's block sits in the output array. -/
theorem emb4_at (t : Fin cfg0.N) (p : Fin 512) (q : Fin 2048) :
    ((cfg0.win 4).blk t).view.emb (ix3 (0 : Fin 1) p q : S1x512x2048.Idx)
      = (ix3 (⟨t.val / 32, by have := t_lt t; omega⟩ : Fin 8)
          (⟨t.val / 16 % 2 * 512 + p.val, by have := p.isLt; omega⟩ : Fin 1024) q : S8x1024x2048.Idx) := by
  obtain ⟨e0, e1, e2⟩ := idx4 t
  funext a; apply Fin.ext
  match a with
  | ⟨0, _⟩ => show win0_4.index t (0 : Fin 3) * 1 + 1 * 0 = t.val / 32; omega
  | ⟨1, _⟩ => show win0_4.index t (1 : Fin 3) * 512 + 1 * p.val = t.val / 16 % 2 * 512 + p.val; omega
  | ⟨2, _⟩ => show win0_4.index t (2 : Fin 3) * 2048 + 1 * q.val = q.val; omega

/-! ## The activations as the region finds them -/

/-- The two lines before the region: the launch activations reshaped, then rounded to bf16. -/
theorem V_main_v1 (c : Dev nD) :
    (V m c main_v1 : FVec Ideal S8x1024x2048 .bf16)
      = truncf (F := Ideal) .bf16 (shapeCast S8x1024x2048 (m ((c : Thread nD τ).loc main_arg0) : FVec Ideal S8192x2048 .f32)
          Facts₀.shapeCasts_S8192x2048_S8x1024x2048) Facts₀.bitsLt_bf16_f32 := by
  show StableHlo.after hostOps0 (fun b => m (c, b)) (Proc.devRef .tc main_v1) = _
  after_results
  rfl

/-- Token r of expert e, at hidden unit h, is the launch activations' row e * 1024 + r at h: the reshape is row-major and
    the rounding is the identity on the extended reals. -/
theorem V_main_v1_at (c : Dev nD) (e : Fin 8) (r : Fin 1024) (h : Fin 2048) :
    V m c main_v1 (ix3 e r h : S8x1024x2048.Idx)
      = m ((c : Thread nD τ).loc main_arg0)
          (ix2 (⟨e.val * 1024 + r.val, by have := e.isLt; have := r.isLt; omega⟩ : Fin 8192) h : S8192x2048.Idx) := by
  rw [V_main_v1, truncf_apply]
  refine shapeCast_apply (s := S8192x2048) (t := S8x1024x2048) _ _ _ _ ?_
  rw [Shape.rowMajor_val_two, Shape.rowMajor_val_three]
  rfl

/-! ## The same, down to the launch memory -/

/-- The activations' block at point t reads the launch activations at row (t / 32) * 1024 + (t / 16) % 2 * 512 + p. -/
theorem blk0_arg (c : Dev nD) (t : Fin cfg0.N) (p : Fin 512) (h : Fin 2048) :
    iblk m c 0 t (ix3 (0 : Fin 1) p h : S1x512x2048.Idx)
      = m ((c : Thread nD τ).loc main_arg0)
          (ix2 (⟨t.val / 32 * 1024 + (t.val / 16 % 2 * 512 + p.val), by have := t_lt t; have := p.isLt; omega⟩ : Fin 8192) h
            : S8192x2048.Idx) := by
  rw [blk0_at, V_main_v1_at]

/-- The gate weights' block at point t reads the launch weights. -/
theorem blk1_arg (c : Dev nD) (t : Fin cfg0.N) (h : Fin 2048) (i : Fin 256) :
    iblk m c 1 t (ix3 (0 : Fin 1) h i : S1x2048x256.Idx)
      = m ((c : Thread nD τ).loc main_arg1) (ix3 (⟨t.val / 32, by have := t_lt t; omega⟩ : Fin 8) h
          (⟨t.val % 16 * 256 + i.val, by have := i.isLt; omega⟩ : Fin 8192) : S8x2048x8192.Idx) := by
  rw [blk1_at, V_main_arg1]

/-- The up weights' block at point t reads the launch weights. -/
theorem blk2_arg (c : Dev nD) (t : Fin cfg0.N) (h : Fin 2048) (i : Fin 256) :
    iblk m c 2 t (ix3 (0 : Fin 1) h i : S1x2048x256.Idx)
      = m ((c : Thread nD τ).loc main_arg1) (ix3 (⟨t.val / 32, by have := t_lt t; omega⟩ : Fin 8) h
          (⟨4096 + t.val % 16 * 256 + i.val, by have := i.isLt; omega⟩ : Fin 8192) : S8x2048x8192.Idx) := by
  rw [blk2_at, V_main_arg1]

/-- The down projection's block at point t reads the launch down projection. -/
theorem blk3_arg (c : Dev nD) (t : Fin cfg0.N) (i : Fin 256) (q : Fin 2048) :
    iblk m c 3 t (ix3 (0 : Fin 1) i q : S1x256x2048.Idx)
      = m ((c : Thread nD τ).loc main_arg2) (ix3 (⟨t.val / 32, by have := t_lt t; omega⟩ : Fin 8)
          (⟨t.val % 16 * 256 + i.val, by have := i.isLt; omega⟩ : Fin 4096) q : S8x4096x2048.Idx) := by
  rw [blk3_at, V_main_arg2]

end Cert.KernelIdeal.Hand.Blocks

end
-- ==== Proof.Payload.lean ====
import proofs.«134587_j38036230373627_2_alg».proof.Proof.Gen.KernelIdeal.Skeleton
import proofs.«134587_j38036230373627_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Experts.Pay

open Idealize.ShloMosaic Idealize.ShloMosaic.ValueIdx Cert.KernelIdeal Cert.KernelIdeal.Gen

/-- The block the first intermediate step stores is zero everywhere. -/
theorem pay1_apply (j : S512x2048.Idx) : k0_pay1 (F := Ideal) j = 0 := by
  unfold k0_pay1
  rw [shapeCast_self]
  exact Ideal.ofBits_zero_f32

/-- The stored output block reads the accumulator at the same row and column. -/
theorem pay3_apply (a : Vec Ideal S512x2048 .f32) (p : Fin 512) (q : Fin 2048) :
    k0_pay3 (F := Ideal) a (ix3 0 p q) = a (ix2 p q) := by
  unfold k0_pay3
  exact shapeCast_ab_1ab_apply a _ 0 p q

/-! ## The two block products at an entry

Each product contracts one axis into a zero accumulator, so an entry of the result is the plain sum, over the
contracted coordinate, of the row entry times the column entry. -/

/-- Rows of the first product's left operand follow the result's row. -/
theorem mmA_lhs0 (j : S512x256.Idx) (k : dot_S512x2048_S2048x256_S512x256_1_0_0_1_n_n.contr.Idx) :
    (dot_S512x2048_S2048x256_S512x256_1_0_0_1_n_n.lhsIdx j k 0).val = (j 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl

/-- Columns of the first product's right operand follow the result's column. -/
theorem mmA_rhs1 (j : S512x256.Idx) (k : dot_S512x2048_S2048x256_S512x256_1_0_0_1_n_n.contr.Idx) :
    (dot_S512x2048_S2048x256_S512x256_1_0_0_1_n_n.rhsIdx j k 1).val = (j 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- A [512,2048] by [2048,256] product into zero, at row `p` and column `i`. -/
theorem mmA_apply (a : FVec Ideal S512x2048 .bf16) (b : FVec Ideal S2048x256 .bf16) (p : Fin 512) (i : Fin 256) :
    matmul (F := Ideal) dot_S512x2048_S2048x256_S512x256_1_0_0_1_n_n none a b
        (constant (F := Ideal) S512x256 .f32 0x00000000#32) (ix2 p i)
      = ∑ h : Fin 2048, a (ix2 p h) * b (ix2 h i) := by
  simp only [matmul]
  rw [Ideal.matmul_constant_zero_apply,
    ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 p i)
      ((contrEquiv1 dot_S512x2048_S2048x256_S512x256_1_0_0_1_n_n 2048 rfl rfl).symm k) = ix2 p k :=
    funext fun c => Fin.ext (by
      match c with
      | ⟨0, _⟩ => exact mmA_lhs0 _ _
      | ⟨1, _⟩ => exact (dot_S512x2048_S2048x256_S512x256_1_0_0_1_n_n.lhsIdx_val_of_single rfl _ _).trans hk)
  have er : dot_S512x2048_S2048x256_S512x256_1_0_0_1_n_n.rhsIdx (ix2 p i)
      ((contrEquiv1 dot_S512x2048_S2048x256_S512x256_1_0_0_1_n_n 2048 rfl rfl).symm k) = ix2 k i :=
    funext fun c => Fin.ext (by
      match c with
      | ⟨0, _⟩ => exact (dot_S512x2048_S2048x256_S512x256_1_0_0_1_n_n.rhsIdx_val_of_single rfl _ _).trans hk
      | ⟨1, _⟩ => exact mmA_rhs1 _ _)
  rw [el, er]

/-- Rows of the second product's left operand follow the result's row. -/
theorem mmB_lhs0 (j : S512x2048.Idx) (k : dot_S512x256_S256x2048_S512x2048_1_0_0_1_n_n.contr.Idx) :
    (dot_S512x256_S256x2048_S512x2048_1_0_0_1_n_n.lhsIdx j k 0).val = (j 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl

/-- Columns of the second product's right operand follow the result's column. -/
theorem mmB_rhs1 (j : S512x2048.Idx) (k : dot_S512x256_S256x2048_S512x2048_1_0_0_1_n_n.contr.Idx) :
    (dot_S512x256_S256x2048_S512x2048_1_0_0_1_n_n.rhsIdx j k 1).val = (j 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- A [512,256] by [256,2048] product into zero, at row `p` and column `q`. -/
theorem mmB_apply (a : FVec Ideal S512x256 .bf16) (b : FVec Ideal S256x2048 .bf16) (p : Fin 512) (q : Fin 2048) :
    matmul (F := Ideal) dot_S512x256_S256x2048_S512x2048_1_0_0_1_n_n none a b
        (constant (F := Ideal) S512x2048 .f32 0x00000000#32) (ix2 p q)
      = ∑ i : Fin 256, a (ix2 p i) * b (ix2 i q) := by
  simp only [matmul]
  rw [Ideal.matmul_constant_zero_apply,
    ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 p q)
      ((contrEquiv1 dot_S512x256_S256x2048_S512x2048_1_0_0_1_n_n 256 rfl rfl).symm k) = ix2 p k :=
    funext fun c => Fin.ext (by
      match c with
      | ⟨0, _⟩ => exact mmB_lhs0 _ _
      | ⟨1, _⟩ => exact (dot_S512x256_S256x2048_S512x2048_1_0_0_1_n_n.lhsIdx_val_of_single rfl _ _).trans hk)
  have er : dot_S512x256_S256x2048_S512x2048_1_0_0_1_n_n.rhsIdx (ix2 p q)
      ((contrEquiv1 dot_S512x256_S256x2048_S512x2048_1_0_0_1_n_n 256 rfl rfl).symm k) = ix2 k q :=
    funext fun c => Fin.ext (by
      match c with
      | ⟨0, _⟩ => exact (dot_S512x256_S256x2048_S512x2048_1_0_0_1_n_n.rhsIdx_val_of_single rfl _ _).trans hk
      | ⟨1, _⟩ => exact mmB_rhs1 _ _)
  rw [el, er]

/-! ## The projections and the accumulation step at an entry -/

/-- A lane-wise logistic reads the extended reals' logistic of the entry. -/
theorem logistic_apply {s : Shape} {φ : FTy} (a : FVec Ideal s φ) (i : s.Idx) :
    logistic a i = Ideal.logistic (a i) := rfl

/-- A projection of the activations' block by a weight block, at token row `p` and intermediate unit `i`: the
    leading unit axes of both blocks carry the coordinate `0` and the narrowing of the weights is the identity. -/
theorem proj_apply (x : Vec Ideal S1x512x2048 .bf16) (w : Vec Ideal S1x2048x256 .f32) (p : Fin 512) (i : Fin 256) :
    matmul (F := Ideal) (φ₁ := .bf16) (φ₂ := .bf16) dot_S512x2048_S2048x256_S512x256_1_0_0_1_n_n none
        (shapeCast S512x2048 x Facts₀.shapeCasts_S1x512x2048_S512x2048 : FVec Ideal S512x2048 .bf16)
        (truncf .bf16 (shapeCast S2048x256 w Facts₀.shapeCasts_S1x2048x256_S2048x256 : FVec Ideal S2048x256 .f32)
          Facts₀.bitsLt_bf16_f32)
        (constant (F := Ideal) S512x256 .f32 0x00000000#32) (ix2 p i)
      = ∑ h : Fin 2048, x (ix3 0 p h) * w (ix3 0 h i) := by
  refine (mmA_apply _ _ p i).trans ?_
  refine Finset.sum_congr rfl fun h _ => ?_
  rw [truncf_apply, shapeCast_1ab_ab_apply, shapeCast_1ab_ab_apply]

/-- One grid point's contribution: the accumulator's entry plus, over the 256 intermediate units of the chunk, the
    up projection times the gate projection passed through `x ↦ x · σ(x)`, times the down projection's entry. The
    narrowing format changes are the identity on the extended reals and the leading unit axes of the blocks carry the
    coordinate `0`. -/
theorem pay2_apply (x : Vec Ideal S1x512x2048 .bf16) (g u : Vec Ideal S1x2048x256 .f32)
    (d : Vec Ideal S1x256x2048 .f32) (acc : Vec Ideal S512x2048 .f32) (p : Fin 512) (q : Fin 2048) :
    k0_pay2 (F := Ideal) x g u d acc (ix2 p q)
      = acc (ix2 p q) + ∑ i : Fin 256,
          ((∑ h : Fin 2048, x (ix3 0 p h) * u (ix3 0 h i))
            * ((∑ h : Fin 2048, x (ix3 0 p h) * g (ix3 0 h i))
              * Ideal.logistic (∑ h : Fin 2048, x (ix3 0 p h) * g (ix3 0 h i)))) * d (ix3 0 i q) := by
  unfold k0_pay2
  rw [shapeCast_self]
  refine congrArg (acc (ix2 p q) + ·) ?_
  refine (mmB_apply _ _ p q).trans ?_
  refine Finset.sum_congr rfl fun i _ => ?_
  rw [truncf_apply, truncf_apply, mulf_apply, mulf_apply, logistic_apply, proj_apply x u p i, proj_apply x g p i,
    shapeCast_1ab_ab_apply]

end Cert.Experts.Pay

end
-- ==== Proof.KI.AccValue.lean ====
/-
  The accumulator in closed form.

  Fix an expert and a token tile, that is, sixteen consecutive grid points with chunks 0 … 15, and a token row r of the
  tile. The point with chunk k adds to the accumulator's entry (p, q) the sum, over the 256 intermediate units of chunk
  k, of the activation of row r at the unit times the down projection's entry: the blocks it reads are the argument
  arrays at row r, at the expert r / 1024 and at the units k * 256 + i. The first point starts from zero. So after
  the point with chunk k the entry is the sum of the contributions of the chunks 0 … k, and after the last point the
  sixteen chunks of 256 are all 4096 intermediate units: the specification's output at (r, q). Only the
  commutative-monoid laws of addition are used.
-/
import proofs.«134587_j38036230373627_2_alg».proof.Proof.KI.Data
import proofs.«134587_j38036230373627_2_alg».proof.Proof.KI.Blocks
import proofs.«134587_j38036230373627_2_alg».proof.Proof.Payload
import proofs.«134587_j38036230373627_2_alg».proof.Proof.RefSide
import proofs.«134587_j38036230373627_2_alg».proof.Proof.Spec

noncomputable section

open scoped BigOperators

namespace Cert.KernelIdeal.Hand.AccValue

open Cert.KernelIdeal Cert.KernelIdeal.Gen Cert.KernelIdeal.Hand Cert.KernelIdeal.Hand.Blocks
open Idealize.ShloMosaic Idealize.ShloMosaic.TcCoe Idealize.ShloMosaic.ValueIdx Idealize.SL.Sem
open Cert.Experts

/-! ## One chunk's contribution -/

/-- The contribution of chunk k to the output at (r, q): the activation of row r at the chunk's 256 intermediate
    units against the down projection (zero past the sixteenth chunk). -/
def chunkN (X : SX.Idx → EReal) (W : SW.Idx → EReal) (D : SD.Idx → EReal) (r : Fin 8192) (q : Fin 2048) (k : ℕ) : EReal :=
  if hk : k < 16 then
    ∑ i : Fin 256, act X W r ⟨k * 256 + i.val, by have := i.isLt; omega⟩
      * D (ix3 (expertOf r) (⟨k * 256 + i.val, by have := i.isLt; omega⟩ : Fin 4096) q)
  else 0

/-- One point's arithmetic, on blocks that hold the argument arrays at row r, expert r / 1024 and chunk k, adds
    chunk k's contribution to the accumulator's entry. -/
theorem step_eq (X : SX.Idx → EReal) (W : SW.Idx → EReal) (D : SD.Idx → EReal) (r : Fin 8192) (k : ℕ) (hk : k < 16)
    (p : Fin 512) (q : Fin 2048)
    (x : Vec Ideal S1x512x2048 .bf16) (g u : Vec Ideal S1x2048x256 .f32) (d : Vec Ideal S1x256x2048 .f32)
    (acc : Vec Ideal S512x2048 .f32)
    (hx : ∀ h : Fin 2048, x (ix3 0 p h) = X (ix2 r h))
    (hg : ∀ (h : Fin 2048) (i : Fin 256), g (ix3 0 h i)
      = W (ix3 (expertOf r) h (gateCol ⟨k * 256 + i.val, by have := i.isLt; omega⟩)))
    (hu : ∀ (h : Fin 2048) (i : Fin 256), u (ix3 0 h i)
      = W (ix3 (expertOf r) h (upCol ⟨k * 256 + i.val, by have := i.isLt; omega⟩)))
    (hd : ∀ i : Fin 256, d (ix3 0 i q)
      = D (ix3 (expertOf r) (⟨k * 256 + i.val, by have := i.isLt; omega⟩ : Fin 4096) q)) :
    k0_pay2 (F := Ideal) x g u d acc (ix2 p q) = acc (ix2 p q) + chunkN X W D r q k := by
  rw [Cert.Experts.Pay.pay2_apply, chunkN, dif_pos hk]
  refine congrArg (acc (ix2 p q) + ·) ?_
  refine Finset.sum_congr rfl fun i _ => ?_
  simp only [hx, hg, hu, hd]
  rfl

/-! ## The partial sums along one tile's sixteen points -/

variable (m : (ℓ : Loc nD τ sig) → Buf (Elt Ideal) ℓ)

/-- After the point at position n, the accumulator's entry (p, q) is the sum of the contributions of the chunks
    0 … n % 16 for the token row r of the point's expert and tile that p names. -/
theorem acc_partial (c : Dev nD) (p : Fin 512) (q : Fin 2048) (r : Fin 8192) :
    ∀ (n : ℕ) (hn : n < cfg0.N), r.val = n / 32 * 1024 + (n / 16 % 2 * 512 + p.val) →
      accAt (F := Ideal) m c n hn (ix2 p q)
        = ∑ k ∈ Finset.range (n % 16 + 1),
            chunkN (m ((c : Thread nD τ).loc main_arg0)) (m ((c : Thread nD τ).loc main_arg1))
              (m ((c : Thread nD τ).loc main_arg2)) r q k := by
  intro n
  induction n using Nat.strong_induction_on with
  | _ n ih =>
    intro hn hr
    have hn' : n < 256 := lt_of_lt_of_eq hn N_0
    have hp := p.isLt
    have he : (⟨n / 32, by omega⟩ : Fin 8) = expertOf r := Fin.ext (by show n / 32 = r.val / 1024; omega)
    have hrow : (⟨n / 32 * 1024 + (n / 16 % 2 * 512 + p.val), by omega⟩ : Fin 8192) = r := Fin.ext hr.symm
    have hx : ∀ h : Fin 2048, iblk m c 0 ⟨n, hn⟩ (ix3 (0 : Fin 1) p h : S1x512x2048.Idx)
        = m ((c : Thread nD τ).loc main_arg0) (ix2 r h) := fun h => by
      rw [blk0_arg]; exact congrArg (fun z => m ((c : Thread nD τ).loc main_arg0) (ix2 z h)) hrow
    have hg : ∀ (h : Fin 2048) (i : Fin 256), iblk m c 1 ⟨n, hn⟩ (ix3 (0 : Fin 1) h i : S1x2048x256.Idx)
        = m ((c : Thread nD τ).loc main_arg1) (ix3 (expertOf r) h (gateCol ⟨n % 16 * 256 + i.val, by have := i.isLt; omega⟩)) :=
      fun h i => by
        rw [blk1_arg, ← he]; rfl
    have hu : ∀ (h : Fin 2048) (i : Fin 256), iblk m c 2 ⟨n, hn⟩ (ix3 (0 : Fin 1) h i : S1x2048x256.Idx)
        = m ((c : Thread nD τ).loc main_arg1) (ix3 (expertOf r) h (upCol ⟨n % 16 * 256 + i.val, by have := i.isLt; omega⟩)) :=
      fun h i => by
        have hcol : (⟨4096 + n % 16 * 256 + i.val, by have := i.isLt; omega⟩ : Fin 8192)
            = upCol ⟨n % 16 * 256 + i.val, by have := i.isLt; omega⟩ :=
          Fin.ext (by show 4096 + n % 16 * 256 + i.val = 4096 + (n % 16 * 256 + i.val); omega)
        rw [blk2_arg, ← he, ← hcol]
    have hd : ∀ i : Fin 256, iblk m c 3 ⟨n, hn⟩ (ix3 (0 : Fin 1) i q : S1x256x2048.Idx)
        = m ((c : Thread nD τ).loc main_arg2)
            (ix3 (expertOf r) (⟨n % 16 * 256 + i.val, by have := i.isLt; omega⟩ : Fin 4096) q) := fun i => by
      rw [blk3_arg, ← he]
    by_cases h0 : n % 16 = 0
    · have e : accAt (F := Ideal) m c n hn = k0_pay2 (iblk m c 0 ⟨n, hn⟩) (iblk m c 1 ⟨n, hn⟩) (iblk m c 2 ⟨n, hn⟩)
          (iblk m c 3 ⟨n, hn⟩) (k0_pay1 (F := Ideal)) := accAt_first m c ⟨n, hn⟩ h0
      rw [e, step_eq _ _ _ r (n % 16) (by omega) p q _ _ _ _ _ hx hg hu hd, Cert.Experts.Pay.pay1_apply, zero_add, h0,
        Finset.sum_range_one]
    · have e : accAt (F := Ideal) m c n hn = k0_pay2 (iblk m c 0 ⟨n, hn⟩) (iblk m c 1 ⟨n, hn⟩) (iblk m c 2 ⟨n, hn⟩)
          (iblk m c 3 ⟨n, hn⟩) (accAt m c (n - 1) (Nat.lt_of_le_of_lt (Nat.sub_le _ _) hn)) := accAt_next m c ⟨n, hn⟩ h0
      rw [e, step_eq _ _ _ r (n % 16) (by omega) p q _ _ _ _ _ hx hg hu hd,
        ih (n - 1) (by omega) _ (by omega), show (n - 1) % 16 + 1 = n % 16 by omega, Finset.sum_range_succ]

/-! ## After the last chunk: the specification's output -/

/-- At a last chunk the accumulator's entry (p, q) is the experts' output at the token row and q. -/
theorem acc_last (c : Dev nD) (t : Fin cfg0.N) (h15 : t.val % 16 = 15) (p : Fin 512) (q : Fin 2048) :
    accAt (F := Ideal) m c t.val t.isLt (ix2 p q)
      = Cert.Experts.out (m ((c : Thread nD τ).loc main_arg0)) (m ((c : Thread nD τ).loc main_arg1))
          (m ((c : Thread nD τ).loc main_arg2))
          (ix2 (⟨t.val / 32 * 1024 + (t.val / 16 % 2 * 512 + p.val), by have := t_lt t; have := p.isLt; omega⟩ : Fin 8192) q) := by
  rw [acc_partial m c p q ⟨t.val / 32 * 1024 + (t.val / 16 % 2 * 512 + p.val), by have := t_lt t; have := p.isLt; omega⟩
    t.val t.isLt rfl, h15, Finset.sum_range]
  show _ = ∑ i : Fin 4096, act _ _ _ i * _
  rw [← Cert.Experts.Ref.sum_chunks]
  refine Finset.sum_congr rfl fun k _ => ?_
  rw [chunkN, dif_pos k.isLt]

end Cert.KernelIdeal.Hand.AccValue

end
-- ==== Proof.KI.Cover.lean ====
/-
  From the written-back blocks to the whole output array, for any float values.

  The output array [8, 1024, 2048] is written back block by block, at the last chunk of each (expert, token tile): point
  t with t % 16 = 15 writes rows (t / 16) % 2 * 512 + p of expert t / 32. Every index (e, r, q) of the array lies in the
  block of the point e * 32 + (r / 512) * 16 + 15, so the blocks cover the array. Hence, if what each such point writes
  back agrees, index by index, with one function G of the array's indices, the array ends holding G.
-/
import proofs.«134587_j38036230373627_2_alg».proof.Proof.KI.Data
import proofs.«134587_j38036230373627_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- An index of a [1, 512, 2048] block is (0, p, q). -/
theorem blockIdx_eq (y : S1x512x2048.Idx) : y = (ix3 (0 : Fin 1) (y 1) (y 2) : S1x512x2048.Idx) := by
  funext a
  match a with
  | ⟨0, _⟩ => exact (Fin.eq_zero (y 0 : Fin 1))
  | ⟨1, _⟩ => rfl
  | ⟨2, _⟩ => rfl

/-- What a last-chunk point t writes back is block t of G, when the reshaped accumulator agrees with G index by index. -/
theorem flushed4_eq (c : Dev nD) (G : S8x1024x2048.Idx → Elt F .f32)
    (hG : ∀ (t : Fin cfg0.N), t.val % 16 = 15 → ∀ (p : Fin 512) (q : Fin 2048),
        k0_pay3 (accAt m c t.val t.isLt) (ix3 (0 : Fin 1) p q : S1x512x2048.Idx)
          = G (ix3 (⟨t.val / 32, by have := Blocks.t_lt t; omega⟩ : Fin 8)
              (⟨t.val / 16 % 2 * 512 + p.val, by have := p.isLt; omega⟩ : Fin 1024) q : S8x1024x2048.Idx))
    (t : Fin cfg0.N) (hf : (cfg0.win 4).flush t = true) :
    (dats m 0 c).flushed 4 t = ((cfg0.win 4).blk t).view.read (Elt F) G := by
  have h15 : t.val % 16 = 15 := (flush0_4 t).mp hf
  show (cfg0.win 4).cut (grid0.coords t) ((dats m 0 c).after 4 t) = _
  rw [after0_4]
  have key : ∀ y : S1x512x2048.Idx,
      k0_pay3 (accAt m c t.val t.isLt) y = G (((cfg0.win 4).blk t).view.emb y) := by
    intro y
    obtain ⟨p, q, rfl⟩ : ∃ (p : Fin 512) (q : Fin 2048), y = (ix3 (0 : Fin 1) p q : S1x512x2048.Idx) :=
      ⟨y 1, y 2, blockIdx_eq y⟩
    exact (hG t h15 p q).trans (congrArg G (Blocks.emb4_at t p q).symm)
  funext y
  exact key y

/-- An index of the array is in point t's block iff each coordinate is in the block's range on its axis. -/
theorem mem_blk4 (t : Fin cfg0.N) (i : S8x1024x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v2).slice (win0_4.rect t)).set ↔ _
  rw [View.set_slice_whole, Rect.mem_set_unit]
  exact Iff.rfl

/-- Every index (e, r, q) of the array is in the block written back at the point e * 32 + (r / 512) * 16 + 15. -/
theorem covered4 (i : S8x1024x2048.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hN : cfg0.N = 256 := N_0
  obtain ⟨t, ht⟩ : ∃ t : Fin cfg0.N, t.val = (i 0).val * 32 + (i 1).val / 512 * 16 + 15 :=
    ⟨⟨(i 0).val * 32 + (i 1).val / 512 * 16 + 15, by omega⟩, rfl⟩
  obtain ⟨e0, e1, e2⟩ := Blocks.idx4 t
  refine ⟨t, (flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 2048 ≤ (i 2).val ∧ (i 2).val < win0_4.index t (2 : Fin 3) * 2048 + 2048
    omega

/-- THE OUTPUT ARRAY after the region: it holds G, when at every last-chunk point the reshaped accumulator agrees with G
    at the block's place in the array. -/
theorem arrAt4_eq (c : Dev nD) (G : S8x1024x2048.Idx → Elt F .f32)
    (hG : ∀ (t : Fin cfg0.N), t.val % 16 = 15 → ∀ (p : Fin 512) (q : Fin 2048),
        k0_pay3 (accAt m c t.val t.isLt) (ix3 (0 : Fin 1) p q : S1x512x2048.Idx)
          = G (ix3 (⟨t.val / 32, by have := Blocks.t_lt t; omega⟩ : Fin 8)
              (⟨t.val / 16 % 2 * 512 + p.val, by have := p.isLt; omega⟩ : Fin 1024) q : S8x1024x2048.Idx)) :
    (dats m 0 c).arrAt 4 cfg0.N = G :=
  (dats m 0 c).arrAt_eq_of_cover 4 G (fun t hf => flushed4_eq m c G hG t hf) covered4

/-- The same read at an index. -/
theorem arrAt4_apply (c : Dev nD) (G : S8x1024x2048.Idx → Elt F .f32)
    (hG : ∀ (t : Fin cfg0.N), t.val % 16 = 15 → ∀ (p : Fin 512) (q : Fin 2048),
        k0_pay3 (accAt m c t.val t.isLt) (ix3 (0 : Fin 1) p q : S1x512x2048.Idx)
          = G (ix3 (⟨t.val / 32, by have := Blocks.t_lt t; omega⟩ : Fin 8)
              (⟨t.val / 16 % 2 * 512 + p.val, by have := p.isLt; omega⟩ : Fin 1024) q : S8x1024x2048.Idx))
    (j : S8x1024x2048.Idx) : (dats m 0 c).arrAt 4 cfg0.N j = G j :=
  congrFun (arrAt4_eq m c G hG) j

end Cert.KernelIdeal.Hand

end
-- ==== Proof.KI.Result.lean ====
/-
  The kernel's result is the specification, on the extended reals.

  The region leaves the output array [8, 1024, 2048]; the one line after it reshapes the array back to [8192, 2048], so
  that entry (r, q) of the result is the array's entry (r / 1024, r % 1024, q). The array is written back block by
  block from the accumulator at the last chunk of each (expert, token tile). So once the accumulator there holds the
  specification's entries of its 512 token rows, the result is the specification.
-/
import proofs.«134587_j38036230373627_2_alg».proof.Proof.KI.Cover
import proofs.«134587_j38036230373627_2_alg».proof.Proof.Payload
import proofs.«134587_j38036230373627_2_alg».proof.Proof.Spec

set_option maxRecDepth 16384

noncomputable section

namespace Cert.KernelIdeal.Hand.Result

open Cert.KernelIdeal Cert.KernelIdeal.Gen Cert.KernelIdeal.Hand
open Idealize.ShloMosaic Idealize.ShloMosaic.TcCoe Idealize.ShloMosaic.ValueIdx
open Idealize.SL Idealize.SL.Sem

/-- The specification laid out as the output array: entry (e, r, q) is the specification's entry at token row
    e * 1024 + r and output unit q. -/
def arrOut (X : Cert.Experts.SX.Idx → EReal) (W : Cert.Experts.SW.Idx → EReal) (D : Cert.Experts.SD.Idx → EReal) :
    S8x1024x2048.Idx → EReal := fun j =>
  Cert.Experts.out X W D (ix2 (⟨(j 0).val * 1024 + (j 1).val, by
    have h0 : (j 0).val < 8 := (j 0).isLt
    have h1 : (j 1).val < 1024 := (j 1).isLt
    omega⟩ : Fin 8192) (j 2))

/-- THE KERNEL'S RESULT IS THE SPECIFICATION: if at every last-chunk point the accumulator holds the specification's
    entries of its 512 token rows, then the output array, reshaped back to [8192, 2048] (entry (r, q) is the array's
    entry (r / 1024, r % 1024, q)), is the specification. -/
theorem result_eq (m : (ℓ : Loc nD τ sig) → Buf (Elt Ideal) ℓ) (c : Dev nD)
    (hacc : ∀ (t : Fin cfg0.N), t.val % 16 = 15 → ∀ (p : Fin 512) (q : Fin 2048),
        accAt (F := Ideal) m c t.val t.isLt (ix2 p q)
          = Cert.Experts.out (m ((c : Thread nD τ).loc main_arg0)) (m ((c : Thread nD τ).loc main_arg1)) (m ((c : Thread nD τ).loc main_arg2))
              (ix2 (⟨t.val / 32 * 1024 + (t.val / 16 % 2 * 512 + p.val), by have := Blocks.t_lt t; have := p.isLt; omega⟩ : Fin 8192) q)) :
    shapeCast S8192x2048 ((dats (F := Ideal) m 0 c).arrAt 4 cfg0.N) Facts₀.shapeCasts_S8x1024x2048_S8192x2048
      = Cert.Experts.out (m ((c : Thread nD τ).loc main_arg0)) (m ((c : Thread nD τ).loc main_arg1)) (m ((c : Thread nD τ).loc main_arg2)) := by
  have hG : ∀ (t : Fin cfg0.N), t.val % 16 = 15 → ∀ (p : Fin 512) (q : Fin 2048),
      k0_pay3 (accAt (F := Ideal) m c t.val t.isLt) (ix3 (0 : Fin 1) p q : S1x512x2048.Idx)
        = arrOut (m ((c : Thread nD τ).loc main_arg0)) (m ((c : Thread nD τ).loc main_arg1)) (m ((c : Thread nD τ).loc main_arg2))
            (ix3 (⟨t.val / 32, by have := Blocks.t_lt t; omega⟩ : Fin 8)
              (⟨t.val / 16 % 2 * 512 + p.val, by have := p.isLt; omega⟩ : Fin 1024) q : S8x1024x2048.Idx) := by
    intro t h15 p q
    refine (Cert.Experts.Pay.pay3_apply _ p q).trans ?_
    exact hacc t h15 p q
  rw [arrAt4_eq m c (arrOut (m ((c : Thread nD τ).loc main_arg0)) (m ((c : Thread nD τ).loc main_arg1)) (m ((c : Thread nD τ).loc main_arg2))) hG]
  funext j
  have hj0 : (j 0).val < 8192 := (j 0).isLt
  have hj1 : (j 1).val < 2048 := (j 1).isLt
  refine (shapeCast_apply (s := S8x1024x2048) (t := S8192x2048) _ _ j
    (ix3 (⟨(j 0).val / 1024, by omega⟩ : Fin 8) (⟨(j 0).val % 1024, by omega⟩ : Fin 1024) (j 1) : S8x1024x2048.Idx) ?_).trans ?_
  · rw [Shape.rowMajor_val_three, Shape.rowMajor_val_two]
    show ((j 0).val / 1024 * 1024 + (j 0).val % 1024) * 2048 + (j 1).val = (j 0).val * 2048 + (j 1).val
    omega
  · refine congrArg (Cert.Experts.out (m ((c : Thread nD τ).loc main_arg0)) (m ((c : Thread nD τ).loc main_arg1)) (m ((c : Thread nD τ).loc main_arg2))) ?_
    funext a
    match a with
    | ⟨0, _⟩ => exact Fin.ext (by show (j 0).val / 1024 * 1024 + (j 0).val % 1024 = (j 0).val; omega)
    | ⟨1, _⟩ => rfl

end Cert.KernelIdeal.Hand.Result

end
-- ==== Proof.lean ====
/-
  Eight experts, each a SwiGLU feed-forward block over its own 1024 token rows: with X the activations (8192 × 2048),
  W the fused gate/up weights (8 × 2048 × 8192: the first 4096 columns of an expert's slab the gate projection, the last
  4096 the up projection) and D the down projection (8 × 4096 × 2048),

      out r j = Σ_{i < 4096} (up r i · (gate r i · σ(gate r i))) · D e i j,     e = r / 1024,
      gate r i = Σ_h X r h · W e h i,   up r i = Σ_h X r h · W e h (4096 + i),   σ x = 1 / (1 + e^(-x)).

  The reference computes exactly this with two batched contractions, two slices and jax's expansion of the logistic.
  The kernel walks a grid (expert, token tile of 512 rows, chunk of 256 intermediate units): at each point it forms the
  gate and up projections of the tile for the chunk's 256 units, applies the activation, contracts with the chunk's 256
  rows of the down projection and adds the result to an accumulator that it zeroes at a tile's first chunk and stores
  to the output at its sixteenth; the fused weights reach it through two windows on the one array. On the extended
  reals every float format is the identity and the kernel's logistic is the reference's expression, so the two differ
  only in how the sum over the 4096 intermediate units is cut: sixteen consecutive chunks added one after the other to
  zero, against one sum — the same element of a commutative monoid. Nothing here needs the inputs to be finite.

  The pieces: the specification (Spec); the reference is the specification (RefSide); the kernel's arithmetic at an
  index (Payload); for the kernel at any float values — the grid's schedule and the body's two conditions in closed
  form (Base), the body's run in each of its three cases (Runs), the proof data with the accumulator tracked point by
  point (Data), the body obligation (Body), the launch with the fused weights' share halved between their two windows
  and the reshape after the region (Launch), the run and the frame (Frame); at the ideal instance — the blocks read at
  an index (Blocks), the accumulator in closed form (AccValue), the output array from its written-back blocks (Cover),
  the result as the specification (Result). The word-level kernel's frame is the same text read at its own program.
-/
import proofs.«134587_j38036230373627_2_alg».proof.Defs
import proofs.«134587_j38036230373627_2_alg».proof.Proof.Gen.Kernel
import proofs.«134587_j38036230373627_2_alg».proof.Proof.Gen.KernelIdeal
import proofs.«134587_j38036230373627_2_alg».proof.Proof.Gen.ReferenceIdeal
import proofs.«134587_j38036230373627_2_alg».proof.Proof.Gen.ReferenceIdeal.Run
import proofs.«134587_j38036230373627_2_alg».proof.Proof.Gen.ReferenceIdeal.Read
import proofs.«134587_j38036230373627_2_alg».proof.Proof.Gen.Pre_finite_inputs
import proofs.«134587_j38036230373627_2_alg».proof.Proof.RefSide
import proofs.«134587_j38036230373627_2_alg».proof.Proof.K.Frame
import proofs.«134587_j38036230373627_2_alg».proof.Proof.KI.Frame
import proofs.«134587_j38036230373627_2_alg».proof.Proof.KI.AccValue
import proofs.«134587_j38036230373627_2_alg».proof.Proof.KI.Result
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_p : Cert.frame_Kernel := fun m ρ _ => Cert.Kernel.Hand.frame (F := Bits) m ρ

/-- So does the idealized kernel. -/
theorem frame_pi : Cert.frame_KernelIdeal := fun m ρ _ => Cert.KernelIdeal.Hand.frame (F := Ideal) m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories that agree on the three arguments both programs end with the specification's array of them. -/
theorem algebraic : Cert.algebraic_KernelIdeal_ReferenceIdeal := by
  intro m ρ m' ρ' _ hagree
  refine ⟨fun c => Cert.Experts.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨((h c).2.2).trans (Cert.KernelIdeal.Hand.Result.result_eq m c (Cert.KernelIdeal.Hand.AccValue.acc_last m c)),
        (h c).2.1, ((h c).1 1).trans (Cert.KernelIdeal.Hand.arg1_kept m c), ((h c).1 3).trans (Cert.KernelIdeal.Hand.arg2_kept m c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.Experts.Ref.ref_run_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
